-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 91
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S1x64, .f32⟩
  | .hbm, ⟨89, _⟩ => ⟨S1x40, .f32⟩
  | .hbm, ⟨90, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x40.size a ≤ S64x40.size a
  hwx2_4 : ∀ i : grid2.Coords, EltTy.bits .f32 = 32 ∨ (Rect.block (s := S64x40) S64x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S100000x40, .f32⟩
  | .hbm, ⟨103, _⟩ => ⟨S1x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S100000, .f32⟩
  | .hbm, ⟨111, _⟩ => ⟨S100000x1, .f32⟩
  | .hbm, ⟨112, _⟩ => ⟨S100000x40, .f32⟩
  | .hbm, ⟨113, _⟩ => ⟨S100000x40, .f32⟩
  | .hbm, ⟨114, _⟩ => ⟨S100000x40, .f32⟩
  | .hbm, ⟨115, _⟩ => ⟨S_, .f32⟩
  | .hbm, ⟨116, _⟩ => ⟨S100000, .f32⟩
  | .hbm, ⟨117, _⟩ => ⟨S100000x1, .f32⟩
  | .hbm, ⟨118, _⟩ => ⟨S100000x1, .f32⟩
  | .hbm, ⟨119, _⟩ => ⟨S100000x40, .f32⟩
  | .hbm, ⟨120, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The two-layer graph convolution with a two-layer classifier head, as one function of the ten argument arrays, written
  with the host operations the reference applies, in its order, each stage named.

  From the edge list e : [2, 1600000] the senders are its first row followed by 0, 1, …, 99999 (a self-loop per node), the
  receivers its second row followed by the same; the degree of a node is the number of edges it receives; an edge's
  weight is d(sender)^(-1/2) · d(receiver)^(-1/2) (with 0 for a node of degree 0); one round of propagation gathers the
  sender's row of a [100000, 64] array for every edge, scales it by the edge's weight and adds it into the receiver's
  row. The network is
      log_softmax( (relu(P(relu(P(x·W1) + b1)·W2) + b2)·W3 + b3)·W4 + b4 )        (P = one round of propagation)
  with log_softmax taken along each row of 40.
-/
import proofs.«148974_j25589415149714_1_alg».proof.Proof.Gen.ReferenceIdeal

noncomputable section

namespace Cert.Gcn

open Idealize.ShloMosaic Cert.ReferenceIdeal Cert.ReferenceIdeal.Facts₀

variable {F : FTy → Type} [FloatOps F]

/-- The senders of the 1700000 edges: row 0 of the edge list, then a self-loop per node. -/
def senders (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The receivers: row 1 of the edge list, then a self-loop per node. -/
def receivers (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The number of edges each node receives, as a float. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (receivers (F := F) e))
    (broadcastInDim S1700000 ![] bcast_S_S1700000 (constant (F := F) S_ .f32 0x3F800000#32))

/-- degree^(-1/2) where the degree is positive, 0 elsewhere. -/
def invSqrtDegree (e : (⟨S2x1600000, .i32⟩ : BufTy).Contents (Elt F)) : (⟨S100000, .f32⟩ : BufTy).Contents (Elt F) :=
  select (cmpf .ogt (degree (F := F) e) (broadcastInDim S100000 ![] bcast_S_S100000 (constant (F := F) S_ .f32 0x00000000#32)))
    (Host.powf (degree (F := F) e) (broadcastInDim S100000 ![] bcast_S_S100000 (constant (F := F) S_ .f32 0xBF000000#32)))
    (broadcastInDim S100000 ![] bcast_S_S100000 (id (constant (F := F) S_ .f32 0x00000000#32)))

/-- A node index below zero counted from the end (jnp's indexing): i + 100000 where i < 0. -/
def wrapped (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- An edge's weight: the product of its two ends' degree^(-1/2). -/
def edgeWeight (e : (⟨S2x1600000, .i32⟩ : BufTy).Contents (Elt F)) : (⟨S1700000, .f32⟩ : BufTy).Contents (Elt F) :=
  mulf
    (Host.gather gather_S100000_S1700000x1_S1700000_n_0_n_n_0_1_1 (invSqrtDegree (F := F) e)
      (broadcastInDim S1700000x1 ![0] bcast_S1700000_S1700000x1_0 (wrapped (F := F) (senders (F := F) e))))
    (Host.gather gather_S100000_S1700000x1_S1700000_n_0_n_n_0_1_1 (invSqrtDegree (F := F) e)
      (broadcastInDim S1700000x1 ![0] bcast_S1700000_S1700000x1_0 (wrapped (F := F) (receivers (F := F) e))))

/-- One round of propagation of a [100000, 64] array `h` along edges with senders `s`, receivers `d` and weights `w`:
    every edge gathers its sender's row, scales it by its weight and adds it into its receiver's row. -/
def propagateWith (h : (⟨S100000x64, .f32⟩ : BufTy).Contents (Elt F)) (s d : (⟨S1700000, .i32⟩ : BufTy).Contents (Elt F))
    (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0 (wrapped (F := F) s)))
      (broadcastInDim S1700000x64 ![0, 1] bcast_S1700000x1_S1700000x64_0_1
        (broadcastInDim S1700000x1 ![0] bcast_S1700000_S1700000x1_0 w)))

/-- One round of propagation along the edge list's weighted edges. -/
def propagate (h : (⟨S100000x64, .f32⟩ : BufTy).Contents (Elt F)) (e : (⟨S2x1600000, .i32⟩ : BufTy).Contents (Elt F)) :
    (⟨S100000x64, .f32⟩ : BufTy).Contents (Elt F) :=
  propagateWith (F := F) h (senders (F := F) e) (receivers (F := F) e) (edgeWeight (F := F) e)

/-- x · W for a [100000, 64] array and a [64, 64] matrix. -/
def dense64 (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- x · W for a [100000, 64] array and a [64, 40] matrix. -/
def dense40 (x : (⟨S100000x64, .f32⟩ : BufTy).Contents (Elt F)) (w : (⟨S64x40, .f32⟩ : BufTy).Contents (Elt F)) :
    (⟨S100000x40, .f32⟩ : BufTy).Contents (Elt F) :=
  Host.dotGeneral dot_S100000x64_S64x40_S100000x40_1_0_0_1_n_n none x w

/-- A bias of 64 entries added to every row. -/
def addBias64 (x : (⟨S100000x64, .f32⟩ : BufTy).Contents (Elt F)) (b : (⟨S64, .f32⟩ : BufTy).Contents (Elt F)) :
    (⟨S100000x64, .f32⟩ : BufTy).Contents (Elt F) :=
  addf x (broadcastInDim S100000x64 ![0, 1] bcast_S1x64_S100000x64_0_1 (broadcastInDim S1x64 ![1] bcast_S64_S1x64_1 b))

/-- A bias of 40 entries added to every row. -/
def addBias40 (x : (⟨S100000x40, .f32⟩ : BufTy).Contents (Elt F)) (b : (⟨S40, .f32⟩ : BufTy).Contents (Elt F)) :
    (⟨S100000x40, .f32⟩ : BufTy).Contents (Elt F) :=
  addf x (broadcastInDim S100000x40 ![0, 1] bcast_S1x40_S100000x40_0_1 (broadcastInDim S1x40 ![1] bcast_S40_S1x40_1 b))

/-- max(x, 0), entry by entry. -/
def relu64 (x : (⟨S100000x64, .f32⟩ : BufTy).Contents (Elt F)) : (⟨S100000x64, .f32⟩ : BufTy).Contents (Elt F) :=
  maximumf x (broadcastInDim S100000x64 ![] bcast_S_S100000x64 (constant (F := F) S_ .f32 0x00000000#32))

/-- Each row's maximum (from -∞). -/
def rowMax (z : (⟨S100000x40, .f32⟩ : BufTy).Contents (Elt F)) : (⟨S100000, .f32⟩ : BufTy).Contents (Elt F) :=
  maximumf (broadcastInDim S100000 ![] bcast_S_S100000 (constant (F := F) S_ .f32 0xFF800000#32))
    (Host.reduce (FloatOps.maximumf (F := F)) z (constant (F := F) S_ .f32 0xFF800000#32) reducesTo_S100000x40_S100000_d1 h_S_)

/-- Each row less the matching entry of a column `mx`. -/
def shiftBy (z : (⟨S100000x40, .f32⟩ : BufTy).Contents (Elt F)) (mx : (⟨S100000, .f32⟩ : BufTy).Contents (Elt F)) :
    (⟨S100000x40, .f32⟩ : BufTy).Contents (Elt F) :=
  subf z (broadcastInDim S100000x40 ![0, 1] bcast_S100000x1_S100000x40_0_1 (broadcastInDim S100000x1 ![0] bcast_S100000_S100000x1_0 mx))

/-- Each row less its maximum. -/
def shifted (z : (⟨S100000x40, .f32⟩ : BufTy).Contents (Elt F)) : (⟨S100000x40, .f32⟩ : BufTy).Contents (Elt F) :=
  shiftBy (F := F) z (rowMax (F := F) z)

/-- Each row less the logarithm of the sum of its exponentials. -/
def lessLogSumExp (s : (⟨S100000x40, .f32⟩ : BufTy).Contents (Elt F)) : (⟨S100000x40, .f32⟩ : BufTy).Contents (Elt F) :=
  subf s
    (broadcastInDim S100000x40 ![0, 1] bcast_S100000x1_S100000x40_0_1
      (Host.log (broadcastInDim S100000x1 ![0] bcast_S100000_S100000x1_0
        (Host.reduceAdd (Host.exp s) (constant (F := F) S_ .f32 0x00000000#32) reducesTo_S100000x40_S100000_d1 h_S_))))

/-- log_softmax along each row of 40: the shifted row less the logarithm of the sum of its exponentials. -/
def logSoftmax (z : (⟨S100000x40, .f32⟩ : BufTy).Contents (Elt F)) : (⟨S100000x40, .f32⟩ : BufTy).Contents (Elt F) :=
  lessLogSumExp (F := F) (shifted (F := F) z)

/-- The first layer's output before the second projection: relu(P(x·W1) + b1). -/
def layer1 (x : (⟨S100000x64, .f32⟩ : BufTy).Contents (Elt F)) (e : (⟨S2x1600000, .i32⟩ : BufTy).Contents (Elt F))
    (w1 : (⟨S64x64, .f32⟩ : BufTy).Contents (Elt F)) (b1 : (⟨S64, .f32⟩ : BufTy).Contents (Elt F)) :
    (⟨S100000x64, .f32⟩ : BufTy).Contents (Elt F) :=
  relu64 (F := F) (addBias64 (F := F) (propagate (F := F) (dense64 (F := F) x w1) e) b1)

/-- The 40 logits per node from the second propagation's output `a`: (relu(a + b2)·W3 + b3)·W4 + b4. -/
def logits (a : (⟨S100000x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F))
    (w4 : (⟨S64x40, .f32⟩ : BufTy).Contents (Elt F)) (b4 : (⟨S40, .f32⟩ : BufTy).Contents (Elt F)) :
    (⟨S100000x40, .f32⟩ : BufTy).Contents (Elt F) :=
  addBias40 (F := F) (dense40 (F := F) (addBias64 (F := F) (dense64 (F := F) (relu64 (F := F) (addBias64 (F := F) a b2)) w3) b3) w4) b4

/-- The classifier head on the second propagation's output `a`: log_softmax of the logits. -/
def head (a : (⟨S100000x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F))
    (w4 : (⟨S64x40, .f32⟩ : BufTy).Contents (Elt F)) (b4 : (⟨S40, .f32⟩ : BufTy).Contents (Elt F)) :
    (⟨S100000x40, .f32⟩ : BufTy).Contents (Elt F) :=
  logSoftmax (F := F) (logits (F := F) a b2 w3 b3 w4 b4)

/-- The whole network. -/
def network (x : (⟨S100000x64, .f32⟩ : BufTy).Contents (Elt F)) (e : (⟨S2x1600000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F))
    (w4 : (⟨S64x40, .f32⟩ : BufTy).Contents (Elt F)) (b4 : (⟨S40, .f32⟩ : BufTy).Contents (Elt F)) :
    (⟨S100000x40, .f32⟩ : BufTy).Contents (Elt F) :=
  head (F := F) (propagate (F := F) (dense64 (F := F) (layer1 (F := F) x e w1 b1) w2) e) b2 w3 b3 w4 b4

end Cert.Gcn

end
-- ==== Proof.SpecRows.lean ====
/-
  The network's dense stages read at an index, over the extended reals: a product at (r, j) is the sum over the 64
  shared coordinates, a bias is added column by column, relu is the maximum with zero. Every one of them reads row r
  of its result from row r of its operand only.
-/
import proofs.«148974_j25589415149714_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.ValueIdx Cert.ReferenceIdeal Cert.ReferenceIdeal.Facts₀

/-- Row `r`, column `j` of the product: the sum over the 64 shared coordinates. -/
theorem dense64_apply (x : FVec Ideal S100000x64 .f32) (w : FVec Ideal S64x64 .f32) (r : Fin 100000) (j : Fin 64) :
    dense64 (F := Ideal) x w (ix2 r j) = ∑ k : Fin 64, x (ix2 r k) * w (ix2 k j) := by
  unfold dense64
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k :=
    funext fun a => Fin.ext (by
      match a with
      | ⟨0, _⟩ =>
        show (dot_S100000x64_S64x64_S100000x64_1_0_0_1_n_n.lhsIdx (ix2 r j) _ 0).val = r.val
        unfold DotDims.lhsIdx
        rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
        rfl
      | ⟨1, _⟩ => exact (dot_S100000x64_S64x64_S100000x64_1_0_0_1_n_n.lhsIdx_val_of_single rfl _ _).trans hk)
  have er : dot_S100000x64_S64x64_S100000x64_1_0_0_1_n_n.rhsIdx (ix2 r j) ((contrEquiv1 dot_S100000x64_S64x64_S100000x64_1_0_0_1_n_n 64 rfl rfl).symm k) = ix2 k j :=
    funext fun a => Fin.ext (by
      match a with
      | ⟨0, _⟩ => exact (dot_S100000x64_S64x64_S100000x64_1_0_0_1_n_n.rhsIdx_val_of_single rfl _ _).trans hk
      | ⟨1, _⟩ =>
        show (dot_S100000x64_S64x64_S100000x64_1_0_0_1_n_n.rhsIdx (ix2 r j) _ 1).val = j.val
        unfold DotDims.rhsIdx
        rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
        rfl)
  rw [el, er]

/-- Row `r`, column `j` of the product: the sum over the 64 shared coordinates. -/
theorem dense40_apply (x : FVec Ideal S100000x64 .f32) (w : FVec Ideal S64x40 .f32) (r : Fin 100000) (j : Fin 40) :
    dense40 (F := Ideal) x w (ix2 r j) = ∑ k : Fin 64, x (ix2 r k) * w (ix2 k j) := by
  unfold dense40
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r j) ((contrEquiv1 dot_S100000x64_S64x40_S100000x40_1_0_0_1_n_n 64 rfl rfl).symm k) = ix2 r k :=
    funext fun a => Fin.ext (by
      match a with
      | ⟨0, _⟩ =>
        show (dot_S100000x64_S64x40_S100000x40_1_0_0_1_n_n.lhsIdx (ix2 r j) _ 0).val = r.val
        unfold DotDims.lhsIdx
        rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
        rfl
      | ⟨1, _⟩ => exact (dot_S100000x64_S64x40_S100000x40_1_0_0_1_n_n.lhsIdx_val_of_single rfl _ _).trans hk)
  have er : dot_S100000x64_S64x40_S100000x40_1_0_0_1_n_n.rhsIdx (ix2 r j) ((contrEquiv1 dot_S100000x64_S64x40_S100000x40_1_0_0_1_n_n 64 rfl rfl).symm k) = ix2 k j :=
    funext fun a => Fin.ext (by
      match a with
      | ⟨0, _⟩ => exact (dot_S100000x64_S64x40_S100000x40_1_0_0_1_n_n.rhsIdx_val_of_single rfl _ _).trans hk
      | ⟨1, _⟩ =>
        show (dot_S100000x64_S64x40_S100000x40_1_0_0_1_n_n.rhsIdx (ix2 r j) _ 1).val = j.val
        unfold DotDims.rhsIdx
        rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
        rfl)
  rw [el, er]

/-- A bias added to every row, at row `r`, column `j`. -/
theorem addBias64_apply (x : FVec Ideal S100000x64 .f32) (b : FVec Ideal S64 .f32) (r : Fin 100000) (j : Fin 64) :
    addBias64 (F := Ideal) x b (ix2 r j) = x (ix2 r j) + b (ix1 j) := by
  unfold addBias64
  rw [addf_apply]
  congr 1
  rw [broadcastInDim_apply _ bcast_S1x64_S100000x64_0_1 _ (ix2 r j) (ix2 (0 : Fin 1) j) (fun a => match a with
      | ⟨0, _⟩ => by show (0 : Nat) = if (1 : Nat) = 1 then 0 else r.val; rw [if_pos rfl]
      | ⟨1, _⟩ => by show j.val = if (64 : Nat) = 1 then 0 else j.val; rw [if_neg (by decide)]),
    broadcastInDim_apply _ bcast_S64_S1x64_1 b (ix2 (0 : Fin 1) j) (ix1 j) (fun a => match a with
      | ⟨0, _⟩ => by show j.val = if (64 : Nat) = 1 then 0 else j.val; rw [if_neg (by decide)])]

/-- A bias added to every row, at row `r`, column `j`. -/
theorem addBias40_apply (x : FVec Ideal S100000x40 .f32) (b : FVec Ideal S40 .f32) (r : Fin 100000) (j : Fin 40) :
    addBias40 (F := Ideal) x b (ix2 r j) = x (ix2 r j) + b (ix1 j) := by
  unfold addBias40
  rw [addf_apply]
  congr 1
  rw [broadcastInDim_apply _ bcast_S1x40_S100000x40_0_1 _ (ix2 r j) (ix2 (0 : Fin 1) j) (fun a => match a with
      | ⟨0, _⟩ => by show (0 : Nat) = if (1 : Nat) = 1 then 0 else r.val; rw [if_pos rfl]
      | ⟨1, _⟩ => by show j.val = if (40 : Nat) = 1 then 0 else j.val; rw [if_neg (by decide)]),
    broadcastInDim_apply _ bcast_S40_S1x40_1 b (ix2 (0 : Fin 1) j) (ix1 j) (fun a => match a with
      | ⟨0, _⟩ => by show j.val = if (40 : Nat) = 1 then 0 else j.val; rw [if_neg (by decide)])]

/-- relu at an index: the maximum with zero. -/
theorem relu64_apply (x : FVec Ideal S100000x64 .f32) (i : S100000x64.Idx) :
    relu64 (F := Ideal) x i = max (x i) (Ideal.ofBits .f32 0x00000000#32) := by
  unfold relu64
  rw [maximumf_apply, broadcastInDim_apply _ bcast_S_S100000x64 _ i ix0 (fun a => a.elim0)]
  rfl

end Cert.Gcn

end
-- ==== Proof.Project1.lean ====
/-
  The first projection. The first launch walks the node features x : [100000, 64] in twenty blocks of 5000 rows and
  writes, for each block, the product of the block with the whole weight matrix W1 : [64, 64] (the two changes of float
  format are the identity on the extended reals, the accumulator is zero). Row r of the product only reads row r of x,
  so block t of the result is block t of the whole product x · W1, the twenty blocks tile the 100000 rows, and the
  array the launch leaves is the reference's `dot_general` of the two whole arrays.
-/
import proofs.«148974_j25589415149714_1_alg».proof.Proof.Gen.KernelIdeal.Frame
import proofs.«148974_j25589415149714_1_alg».proof.Proof.SpecRows
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen

theorem zeros2 : (![0, 0] : Fin 2 → Nat) = fun _ => 0 := funext fun a => by fin_cases a <;> rfl

/-- A [5000, 64] by [64, 64] product into a zero accumulator, at row `p` and column `q`: the sum over the 64 shared
    coordinates of the products of the entries. -/
theorem matmul64_apply (x : FVec Ideal S5000x64 .bf16) (w : FVec Ideal S64x64 .bf16) (p : Fin 5000) (q : Fin 64) :
    matmul (F := Ideal) dot_S5000x64_S64x64_S5000x64_1_0_0_1_n_n none x w (constant S5000x64 .f32 0x00000000#32) (ix2 p q)
      = ∑ k : Fin 64, x (ix2 p k) * w (ix2 k q) := by
  show FloatOps.matmul _ _ _ _ _ _ = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]

/-- The first launch's stored value at row `p`, column `q` of a block. -/
theorem project1_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact matmul64_apply _ _ p q

/-- The same at any index of the block. -/
theorem project1_at (x0 : Vec Ideal S5000x64 .f32) (x1 : Vec Ideal S64x64 .f32) (y : S5000x64.Idx) :
    k0_pay1 (F := Ideal) x0 x1 y = ∑ k : Fin 64, x0 (ix2 (y 0) k) * x1 (ix2 k (y 1)) := by
  exact (congrArg (k0_pay1 (F := Ideal) x0 x1) (eq_ix2 y)).trans (project1_apply x0 x1 (y 0) (y 1))

/-- A whole-array product at any index. -/
theorem dense64_at (x : FVec Ideal Cert.ReferenceIdeal.S100000x64 .f32) (w : FVec Ideal Cert.ReferenceIdeal.S64x64 .f32)
    (i : Cert.ReferenceIdeal.S100000x64.Idx) :
    Cert.Gcn.dense64 (F := Ideal) x w i = ∑ k : Fin 64, x (ix2 (i 0) k) * w (ix2 k (i 1)) := by
  exact (congrArg (Cert.Gcn.dense64 (F := Ideal) x w) (eq_ix2 i)).trans (Cert.Gcn.dense64_apply x w (i 0) (i 1))

section Launch0

variable (V : (c : Dev nD) → (b : Ref sig .tc) → Buf (Elt Ideal) ((c : Thread nD τ).loc b))

/-- The printed index maps over the twenty points: the features' and the result's windows are at block (t, 0), the
    weights' window stays at block (0, 0). -/
theorem blocks0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- The features' block at point `t` is rows 5000 t … 5000 t + 4999 of the array. -/
theorem rows0 (c : Dev nD) (t : Fin cfg0.N) (y : S5000x64.Idx) (i : S100000x64.Idx)
    (h0 : (i 0).val = 5000 * t.val + (y 0).val) (h1 : (i 1).val = (y 1).val) :
    (iblk0 V c 0 t : Vec Ideal S5000x64 .f32) y = (V c main_arg0 : S100000x64.Idx → Elt Ideal .f32) i := by
  unfold iblk0
  rw [View.read_apply]
  show V c main_arg0 _ = V c main_arg0 _
  refine congrArg _ (funext fun a => Fin.ext ?_)
  match a with
  | ⟨0, _⟩ => show win0_0.index t 0 * 5000 + 1 * (y 0).val = (i 0).val; rw [(blocks0 t).1, h0]; omega
  | ⟨1, _⟩ => show win0_0.index t 1 * 64 + 1 * (y 1).val = (i 1).val; rw [(blocks0 t).2.1, h1]; omega

/-- The weights' block at every point is the whole matrix. -/
theorem weights0 (c : Dev nD) (t : Fin cfg0.N) (y : S64x64.Idx) :
    (iblk0 V c 1 t : Vec Ideal S64x64 .f32) y = (V c main_arg2 : S64x64.Idx → Elt Ideal .f32) y := by
  unfold iblk0
  rw [View.read_apply]
  show V c main_arg2 _ = V c main_arg2 _
  refine congrArg _ (funext fun a => Fin.ext ?_)
  match a with
  | ⟨0, _⟩ => show win0_1.index t 0 * 64 + 1 * (y 0).val = (y 0).val; rw [(blocks0 t).2.2.1]; omega
  | ⟨1, _⟩ => show win0_1.index t 1 * 64 + 1 * (y 1).val = (y 1).val; rw [(blocks0 t).2.2.2.1]; omega

/-- What point `t` writes back is block `t` of the whole product. -/
theorem flushed0 (c : Dev nD) (t : Fin cfg0.N) :
    (dat0 V c).flushed 2 t = ((cfg0.win 2).blk t).view.read (Elt Ideal)
      (Cert.Gcn.dense64 (F := Ideal) (V c main_arg0) (V c main_arg2)) := by
  show (cfg0.win 2).cut (grid0.coords t) ((dat0 V c).after 2 t) = _
  rw [after0_2]
  unfold out0_2
  rw [View.canon_unit_zero zeros2]
  simp only [View.ld_unit_zero (S := S5000x64) zeros2, View.ld_unit_zero (S := S64x64) zeros2]
  funext j
  show k0_pay1 (F := Ideal) (iblk0 V c 0 t) (iblk0 V c 1 t) j
    = Cert.Gcn.dense64 (F := Ideal) (V c main_arg0) (V c main_arg2) (((cfg0.win 2).blk t).view.emb j)
  rw [project1_at, dense64_at]
  refine Finset.sum_congr rfl fun k _ => ?_
  have e0 : ((((cfg0.win 2).blk t).view.emb j) 0).val = 5000 * t.val + (j 0).val := by
    show win0_2.index t 0 * 5000 + 1 * (j 0).val = _; rw [(blocks0 t).2.2.2.2.1]; omega
  have e1 : ((((cfg0.win 2).blk t).view.emb j) 1).val = (j 1).val := by
    show win0_2.index t 1 * 64 + 1 * (j 1).val = _; rw [(blocks0 t).2.2.2.2.2]; omega
  rw [rows0 V c t (ix2 (j 0) k) (ix2 ((((cfg0.win 2).blk t).view.emb j) 0) k) e0 rfl, weights0 V c t]
  refine congrArg _ (congrArg _ (funext fun a => Fin.ext ?_))
  match a with
  | ⟨0, _⟩ => rfl
  | ⟨1, _⟩ => exact e1.symm

/-- An index of the result is in point `t`'s block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- The twenty blocks tile the 100000 rows: row r is in block r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_block0]
  intro a
  match a with
  | ⟨0, _⟩ =>
    show win0_2.index _ 0 * 5000 ≤ (i 0).val ∧ (i 0).val < win0_2.index _ 0 * 5000 + 5000
    rw [(blocks0 _).2.2.2.2.1]
    show (i 0).val / 5000 * 5000 ≤ (i 0).val ∧ (i 0).val < (i 0).val / 5000 * 5000 + 5000
    omega
  | ⟨1, _⟩ =>
    show win0_2.index _ 1 * 64 ≤ (i 1).val ∧ (i 1).val < win0_2.index _ 1 * 64 + 64
    rw [(blocks0 _).2.2.2.2.2]
    omega

/-- The array the first launch leaves is the product of the two whole arrays it found. -/
theorem final0 (c : Dev nD) :
    (dat0 V c).arrAt 2 cfg0.N = Cert.Gcn.dense64 (F := Ideal) (V c main_arg0) (V c main_arg2) :=
  (dat0 V c).arrAt_eq_of_cover 2 (Cert.Gcn.dense64 (F := Ideal) (V c main_arg0) (V c main_arg2))
    (fun t _ => flushed0 V c t) cover0

end Launch0

end Cert.KernelIdeal.Rows

end
-- ==== Proof.Project2.lean ====
/-
  The second projection, fused with the first layer's bias and relu. The second launch walks the propagated array
  a : [100000, 64] in twenty blocks of 5000 rows; for each block it adds the bias row (kept as a [1, 64] array), takes
  the maximum with zero and multiplies by the whole matrix W2. Row r of the result reads row r of a only, so block t of
  the result is block t of relu(a + b1) · W2 and the twenty blocks tile the rows.
-/
import proofs.«148974_j25589415149714_1_alg».proof.Proof.Project1
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen

/-- The second launch's stored value at row `p`, column `q` of a block: the bias row added, the maximum with zero,
    the product with the matrix. -/
theorem project2_apply (x0 : Vec Ideal S5000x64 .f32) (x1 : Vec Ideal S1x64 .f32) (x2 : Vec Ideal S64x64 .f32)
    (p : Fin 5000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (matmul64_apply _ _ p q).trans (Finset.sum_congr rfl fun k _ => ?_)
  rw [truncf_apply, truncf_apply, maximumf_apply, addf_apply, shapeCast_self, shapeCast_self, broadcastTo_1b_ab_apply]
  rfl

/-- The same at any index of the block. -/
theorem project2_at (x0 : Vec Ideal S5000x64 .f32) (x1 : Vec Ideal S1x64 .f32) (x2 : Vec Ideal S64x64 .f32) (y : S5000x64.Idx) :
    k1_pay1 (F := Ideal) x0 x1 x2 y
      = ∑ k : Fin 64, max (x0 (ix2 (y 0) k) + x1 (ix2 (0 : Fin 1) k)) (Ideal.ofBits .f32 0x00000000#32) * x2 (ix2 k (y 1)) :=
  (congrArg (k1_pay1 (F := Ideal) x0 x1 x2) (eq_ix2 y)).trans (project2_apply x0 x1 x2 (y 0) (y 1))

section Launch1

variable (V : (c : Dev nD) → (b : Ref sig .tc) → Buf (Elt Ideal) ((c : Thread nD τ).loc b))

/-- Window 0's block index over the twenty points. -/
theorem at1_0 : ∀ t : Fin cfg1.N, win1_0.index t 0 = t.val ∧ win1_0.index t 1 = 0 :=
  (by decide +kernel : ∀ t : Fin grid1.N, _)

/-- The propagated array's block at point `t` is rows 5000 t … 5000 t + 4999 of the array. -/
theorem rows1_0 (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v44 : S100000x64.Idx → Elt Ideal .f32) i := by
  unfold iblk1
  rw [View.read_apply]
  show V c main_v44 _ = V c main_v44 _
  refine congrArg _ (funext fun a => Fin.ext ?_)
  match a with
  | ⟨0, _⟩ => show win1_0.index t 0 * 5000 + 1 * (y 0).val = (i 0).val; rw [(at1_0 t).1, h0]; omega
  | ⟨1, _⟩ => show win1_0.index t 1 * 64 + 1 * (y 1).val = (i 1).val; rw [(at1_0 t).2, h1]; omega

/-- Window 1's block index over the twenty points. -/
theorem at1_1 : ∀ t : Fin cfg1.N, win1_1.index t 0 = 0 ∧ win1_1.index t 1 = 0 :=
  (by decide +kernel : ∀ t : Fin grid1.N, _)

/-- The bias row's block at every point is the whole [1, 64] array. -/
theorem whole1_1 (c : Dev nD) (t : Fin cfg1.N) (y : S1x64.Idx) :
    (iblk1 V c 1 t : Vec Ideal S1x64 .f32) y = (V c main_v45 : S1x64.Idx → Elt Ideal .f32) y := by
  unfold iblk1
  rw [View.read_apply]
  show V c main_v45 _ = V c main_v45 _
  refine congrArg _ (funext fun a => Fin.ext ?_)
  match a with
  | ⟨0, _⟩ => show win1_1.index t 0 * 1 + 1 * (y 0).val = (y 0).val; rw [(at1_1 t).1]; omega
  | ⟨1, _⟩ => show win1_1.index t 1 * 64 + 1 * (y 1).val = (y 1).val; rw [(at1_1 t).2]; omega

/-- Window 2's block index over the twenty points. -/
theorem at1_2 : ∀ t : Fin cfg1.N, win1_2.index t 0 = 0 ∧ win1_2.index t 1 = 0 :=
  (by decide +kernel : ∀ t : Fin grid1.N, _)

/-- The weights' block at every point is the whole matrix. -/
theorem whole1_2 (c : Dev nD) (t : Fin cfg1.N) (y : S64x64.Idx) :
    (iblk1 V c 2 t : Vec Ideal S64x64 .f32) y = (V c main_arg4 : S64x64.Idx → Elt Ideal .f32) y := by
  unfold iblk1
  rw [View.read_apply]
  show V c main_arg4 _ = V c main_arg4 _
  refine congrArg _ (funext fun a => Fin.ext ?_)
  match a with
  | ⟨0, _⟩ => show win1_2.index t 0 * 64 + 1 * (y 0).val = (y 0).val; rw [(at1_2 t).1]; omega
  | ⟨1, _⟩ => show win1_2.index t 1 * 64 + 1 * (y 1).val = (y 1).val; rw [(at1_2 t).2]; omega

/-- Window 3's block index over the twenty points. -/
theorem at1_3 : ∀ t : Fin cfg1.N, win1_3.index t 0 = t.val ∧ win1_3.index t 1 = 0 :=
  (by decide +kernel : ∀ t : Fin grid1.N, _)

/-- What point `t` writes back is block `t` of relu(a + b) · W, where `a` and `W` are the arrays the launch finds and
    the bias row it finds is the 64 biases `b` kept as a [1, 64] array. -/
theorem flushed1 (c : Dev nD) (t : Fin cfg1.N) (b : FVec Ideal S64 .f32)
    (hb : (V c main_v45 : S1x64.Idx → Elt Ideal .f32) = shapeCast S1x64 b shapeCasts_S64_S1x64) :
    (dat1 V c).flushed 3 t = ((cfg1.win 3).blk t).view.read (Elt Ideal)
      (Cert.Gcn.dense64 (F := Ideal) (Cert.Gcn.relu64 (F := Ideal) (Cert.Gcn.addBias64 (F := Ideal) (V c main_v44) b)) (V c main_arg4)) := by
  show (cfg1.win 3).cut (grid1.coords t) ((dat1 V c).after 3 t) = _
  rw [after1_3]
  unfold out1_3
  rw [View.canon_unit_zero zeros2]
  simp only [View.ld_unit_zero (S := S5000x64) zeros2, View.ld_unit_zero (S := S1x64) zeros2, View.ld_unit_zero (S := S64x64) zeros2]
  funext j
  show k1_pay1 (F := Ideal) (iblk1 V c 0 t) (iblk1 V c 1 t) (iblk1 V c 2 t) j
    = Cert.Gcn.dense64 (F := Ideal) (Cert.Gcn.relu64 (F := Ideal) (Cert.Gcn.addBias64 (F := Ideal) (V c main_v44) b)) (V c main_arg4)
        (((cfg1.win 3).blk t).view.emb j)
  have hN : cfg1.N = 20 := N_1
  have hj0 : (j 0).val < 5000 := (j 0).isLt
  have hj1 : (j 1).val < 64 := (j 1).isLt
  have ht : t.val < 20 := hN ▸ t.isLt
  have he : ((cfg1.win 3).blk t).view.emb j
      = (ix2 (⟨5000 * t.val + (j 0).val, by omega⟩ : Fin 100000) (⟨(j 1).val, hj1⟩ : Fin 64) : S100000x64.Idx) :=
    funext fun a => Fin.ext (by
      match a with
      | ⟨0, _⟩ => show win1_3.index t 0 * 5000 + 1 * (j 0).val = 5000 * t.val + (j 0).val; rw [(at1_3 t).1]; omega
      | ⟨1, _⟩ => show win1_3.index t 1 * 64 + 1 * (j 1).val = (j 1).val; rw [(at1_3 t).2]; omega)
  rw [he, project2_at, Cert.Gcn.dense64_apply]
  refine Finset.sum_congr rfl fun k _ => ?_
  rw [rows1_0 V c t (ix2 (j 0) k) (ix2 (⟨5000 * t.val + (j 0).val, by omega⟩ : Fin 100000) k) rfl rfl, whole1_1 V c t, whole1_2 V c t, hb,
    shapeCast_a_1a_apply, Cert.Gcn.relu64_apply, Cert.Gcn.addBias64_apply]
  rfl

/-- An index of the result is in point `t`'s block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v46).slice (win1_3.rect t)).set ↔ _
  rw [View.set_slice_whole, Rect.mem_set_unit]
  exact Iff.rfl

/-- The twenty blocks tile the 100000 rows: row r is in block r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_block1]
  intro a
  match a with
  | ⟨0, _⟩ =>
    show win1_3.index _ 0 * 5000 ≤ (i 0).val ∧ (i 0).val < win1_3.index _ 0 * 5000 + 5000
    rw [(at1_3 _).1]
    show (i 0).val / 5000 * 5000 ≤ (i 0).val ∧ (i 0).val < (i 0).val / 5000 * 5000 + 5000
    omega
  | ⟨1, _⟩ =>
    show win1_3.index _ 1 * 64 ≤ (i 1).val ∧ (i 1).val < win1_3.index _ 1 * 64 + 64
    rw [(at1_3 _).2]
    omega

/-- The array the second launch leaves. -/
theorem final1 (c : Dev nD) (b : FVec Ideal S64 .f32)
    (hb : (V c main_v45 : S1x64.Idx → Elt Ideal .f32) = shapeCast S1x64 b shapeCasts_S64_S1x64) :
    (dat1 V c).arrAt 3 cfg1.N
      = Cert.Gcn.dense64 (F := Ideal) (Cert.Gcn.relu64 (F := Ideal) (Cert.Gcn.addBias64 (F := Ideal) (V c main_v44) b)) (V c main_arg4) :=
  (dat1 V c).arrAt_eq_of_cover 3 _ (fun t _ => flushed1 V c t b hb) cover1

end Launch1

end Cert.KernelIdeal.Rows

end
-- ==== Proof.SoftmaxRows.lean ====
/-
  log_softmax one row at a time. For a row v of 40 extended reals let M = max(-∞, max_k v k); the shifted row is
  v j - M and the result v j - M - log(Σ_k exp(v k - M)). The network's log_softmax at (r, j) is this function of row
  r of its operand: the host's maximum along a row is a fold of max from -∞ over the row's 40 entries, its sum
  along a row is 0 plus the sum of the 40 entries, and each broadcast reads the row's one value.
-/
import proofs.«148974_j25589415149714_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.ValueIdx Cert.ReferenceIdeal Cert.ReferenceIdeal.Facts₀

/-- The float -∞, as the extended real it denotes. -/
abbrev negInf : Ideal .f32 := Ideal.ofBits .f32 0xFF800000#32

/-- A row of 40 less its maximum (taken from -∞). -/
def rowShift (v : Fin 40 → Ideal .f32) (j : Fin 40) : Ideal .f32 :=
  v j - max negInf (Finset.univ.fold max negInf v)

/-- log_softmax of a row of 40. -/
def rowLogSoftmax (v : Fin 40 → Ideal .f32) (j : Fin 40) : Ideal .f32 :=
  rowShift v j - Ideal.log (∑ k : Fin 40, Ideal.exp (rowShift v k))

theorem hostRed : S100000x40.Reduces [1] S100000 := by decide

/-- Folding the float maximum over a finite set of extended reals is folding `max`. -/
theorem fold_maximumf_eq {n : Nat} (b : Ideal .f32) (f : Fin n → Ideal .f32) (s : Finset (Fin n)) :
    s.fold (FloatOps.maximumf (F := Ideal) (φ := .f32)) b f = s.fold max b f := by
  induction s using Finset.induction_on with
  | empty => rfl
  | insert a s ha ih => rw [Finset.fold_insert ha, Finset.fold_insert ha, ih]; rfl

/-- Inserting column `k` into row index `r`. -/
theorem lift_host (r : Fin 100000) (k : Fin 40) : hostRed.lift (ix1 r) k = ix2 r k :=
  funext fun c => Fin.ext (by
    match c with
    | ⟨0, _⟩ => rfl
    | ⟨1, _⟩ => rfl)

theorem col_of_row (r : Fin 100000) (j : Fin 40) : ∀ a : Fin S100000x1.rank,
    ((ix2 r (0 : Fin 1) : S100000x1.Idx) a).val = if S100000x1.size a = 1 then 0 else ((ix2 r j : S100000x40.Idx) ((![0, 1] : Fin 2 → Fin 2) a)).val :=
  fun a => match a with
    | ⟨0, _⟩ => by show r.val = if (100000 : Nat) = 1 then 0 else r.val; rw [if_neg (by decide)]
    | ⟨1, _⟩ => by show (0 : Nat) = if (1 : Nat) = 1 then 0 else j.val; rw [if_pos rfl]

theorem row_of_col (r : Fin 100000) : ∀ a : Fin S100000.rank,
    ((ix1 r : S100000.Idx) a).val = if S100000.size a = 1 then 0 else ((ix2 r (0 : Fin 1) : S100000x1.Idx) ((![0] : Fin 1 → Fin 2) a)).val :=
  fun a => match a with
    | ⟨0, _⟩ => by show r.val = if (100000 : Nat) = 1 then 0 else r.val; rw [if_neg (by decide)]

/-- The host's logarithm and exponential, entry by entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The row maximum at row `r`. -/
theorem rowMax_apply (z : FVec Ideal S100000x40 .f32) (r : Fin 100000) :
    rowMax (F := Ideal) z (ix1 r) = max negInf (Finset.univ.fold max negInf fun k : Fin 40 => z (ix2 r k)) := by
  unfold rowMax
  rw [maximumf_apply, broadcastInDim_apply _ bcast_S_S100000 _ (ix1 r) ix0 (fun a => a.elim0),
    Host.reduce_eq_fold_single (FloatOps.maximumf (F := Ideal)) z _ reducesTo_S100000x40_S100000_d1 hostRed h_S_ (ix1 r)]
  have e : (z ∘ hostRed.lift (ix1 r)) = fun k => z (ix2 r k) := funext fun k => congrArg z (lift_host r k)
  rw [e]
  exact congrArg (max _) (fold_maximumf_eq (n := 40) negInf (fun k => z (ix2 r k)) Finset.univ)

/-- The shifted operand at (r, j). -/
theorem shifted_apply (z : FVec Ideal S100000x40 .f32) (r : Fin 100000) (j : Fin 40) :
    shifted (F := Ideal) z (ix2 r j) = rowShift (fun k => z (ix2 r k)) j := by
  unfold shifted shiftBy
  rw [subf_apply, broadcastInDim_apply _ bcast_S100000x1_S100000x40_0_1 _ (ix2 r j) (ix2 r (0 : Fin 1)) (col_of_row r j),
    broadcastInDim_apply _ bcast_S100000_S100000x1_0 _ (ix2 r (0 : Fin 1)) (ix1 r) (row_of_col r), rowMax_apply]
  rfl

/-- log_softmax at (r, j) is the row function of row `r`. -/
theorem logSoftmax_apply (z : FVec Ideal S100000x40 .f32) (r : Fin 100000) (j : Fin 40) :
    logSoftmax (F := Ideal) z (ix2 r j) = rowLogSoftmax (fun k => z (ix2 r k)) j := by
  unfold logSoftmax lessLogSumExp
  rw [subf_apply, shifted_apply, broadcastInDim_apply _ bcast_S100000x1_S100000x40_0_1 _ (ix2 r j) (ix2 r (0 : Fin 1)) (col_of_row r j)]
  rw [hostLog_apply, broadcastInDim_apply _ bcast_S100000_S100000x1_0 _ (ix2 r (0 : Fin 1)) (ix1 r) (row_of_col r)]
  unfold Host.reduceAdd
  rw [Ideal.hostReduceAdd_def, Ideal.hostReduceAdd_single _ hostRed, constant_apply, Ideal.ofBits_zero_f32, zero_add]
  unfold rowLogSoftmax
  refine congrArg _ (congrArg _ (Finset.sum_congr rfl fun k _ => ?_))
  exact (congrArg (Host.exp (shifted (F := Ideal) z)) (lift_host r k)).trans
    ((hostExp_apply _ _).trans (congrArg Ideal.exp (shifted_apply z r k)))

end Cert.Gcn

end
-- ==== Proof.Classify.lean ====
/-
  The head, fused in the third launch. For a block of 5000 rows of the second propagation's output the launch adds the
  bias row b2, takes the maximum with zero, multiplies by W3, adds b3, multiplies by W4, adds b4 (the logits: 40 per
  row) and takes log_softmax along each row: the row less its maximum (from -∞), less the logarithm of the sum of the
  exponentials. Each row of the result is a function of the same row of the input, the same function the network's head
  applies to that row, so block t of the result is block t of the head of the whole array.
-/
import proofs.«148974_j25589415149714_1_alg».proof.Proof.Project2
import proofs.«148974_j25589415149714_1_alg».proof.Proof.SoftmaxRows

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen

/-- A [5000, 64] by [64, 40] product into a zero accumulator, at row `p` and column `q`. -/
theorem matmul40_apply (x : FVec Ideal S5000x64 .bf16) (w : FVec Ideal S64x40 .bf16) (p : Fin 5000) (q : Fin 40) :
    matmul (F := Ideal) dot_S5000x64_S64x40_S5000x40_1_0_0_1_n_n none x w (constant S5000x40 .f32 0x00000000#32) (ix2 p q)
      = ∑ k : Fin 64, x (ix2 p k) * w (ix2 k q) := by
  show FloatOps.matmul _ _ _ _ _ _ = _
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k :=
    funext fun a => Fin.ext (by
      match a with
      | ⟨0, _⟩ =>
        show (dot_S5000x64_S64x40_S5000x40_1_0_0_1_n_n.lhsIdx (ix2 p q) _ 0).val = p.val
        unfold DotDims.lhsIdx
        rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
        rfl
      | ⟨1, _⟩ => exact (dot_S5000x64_S64x40_S5000x40_1_0_0_1_n_n.lhsIdx_val_of_single rfl _ _).trans hk)
  have er : dot_S5000x64_S64x40_S5000x40_1_0_0_1_n_n.rhsIdx (ix2 p q) ((contrEquiv1 dot_S5000x64_S64x40_S5000x40_1_0_0_1_n_n 64 rfl rfl).symm k) = ix2 k q :=
    funext fun a => Fin.ext (by
      match a with
      | ⟨0, _⟩ => exact (dot_S5000x64_S64x40_S5000x40_1_0_0_1_n_n.rhsIdx_val_of_single rfl _ _).trans hk
      | ⟨1, _⟩ =>
        show (dot_S5000x64_S64x40_S5000x40_1_0_0_1_n_n.rhsIdx (ix2 p q) _ 1).val = q.val
        unfold DotDims.rhsIdx
        rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
        rfl)
  rw [el, er]

/-- The block's logits: ((relu(x0 + b2)·W3) + b3)·W4 + b4, the first product being the second launch's own. -/
def blockLogits (x0 : Vec Ideal S5000x64 .f32) (x1 : Vec Ideal S1x64 .f32) (x2 : Vec Ideal S64x64 .f32)
    (x3 : Vec Ideal S1x64 .f32) (x4 : Vec Ideal S64x40 .f32) (x5 : Vec Ideal S1x40 .f32) : FVec Ideal S5000x40 .f32 :=
  addf
    (matmul (F := Ideal) dot_S5000x64_S64x40_S5000x40_1_0_0_1_n_n none
      (truncf .bf16 (addf (k1_pay1 (F := Ideal) x0 x1 x2) (broadcastTo S5000x64 (shapeCast S1x64 x3 shapeCasts_S1x64_S1x64) broadcasts_S1x64_S5000x64)) bitsLt_bf16_f32)
      (truncf .bf16 x4 bitsLt_bf16_f32) (constant S5000x40 .f32 0x00000000#32))
    (broadcastTo S5000x40 (shapeCast S1x40 x5 shapeCasts_S1x40_S1x40) broadcasts_S1x40_S5000x40)

/-- A block of logits less each row's maximum. -/
def blockShift (z : FVec Ideal S5000x40 .f32) : FVec Ideal S5000x40 .f32 :=
  subf z (broadcastTo S5000x40 (shapeCast S5000x1
    (maximumf (broadcast S5000 (Scalar.ofBits (F := Ideal) .f32 0xFF800000#32))
      (multiReduction .maximumf [1] S5000 z 0xFF800000#32 reduces_S5000x40_S5000 (.inl rfl) rfl))
    shapeCasts_S5000_S5000x1) broadcasts_S5000x1_S5000x40)

/-- log_softmax of a block of logits, row by row. -/
def blockLogSoftmax (z : FVec Ideal S5000x40 .f32) : FVec Ideal S5000x40 .f32 :=
  subf (blockShift z) (broadcastTo S5000x40 (log (shapeCast S5000x1
    (multiReduction .add [1] S5000 (exp (blockShift z)) 0x00000000#32 reduces_S5000x40_S5000 (.inl rfl) rfl)
    shapeCasts_S5000_S5000x1)) broadcasts_S5000x1_S5000x40)

/-- The third launch's stored value is the log_softmax of the block's logits. -/
theorem head_payload (x0 : Vec Ideal S5000x64 .f32) (x1 : Vec Ideal S1x64 .f32) (x2 : Vec Ideal S64x64 .f32)
    (x3 : Vec Ideal S1x64 .f32) (x4 : Vec Ideal S64x40 .f32) (x5 : Vec Ideal S1x40 .f32) :
    k2_pay1 (F := Ideal) x0 x1 x2 x3 x4 x5 = blockLogSoftmax (blockLogits x0 x1 x2 x3 x4 x5) := rfl

/-- Inserting column `k` into row `p` of a block. -/
theorem lift_block (p : Fin 5000) (k : Fin 40) :
    (reduces_S5000x40_S5000 : S5000x40.Reduces [1] S5000).lift (ix1 p) k = ix2 p k :=
  funext fun c => Fin.ext (by
    match c with
    | ⟨0, _⟩ => rfl
    | ⟨1, _⟩ => rfl)

/-- A column vector [5000] kept as [5000, 1]. -/
theorem column_apply (x : FVec Ideal S5000 .f32) (p : Fin 5000) :
    shapeCast S5000x1 x shapeCasts_S5000_S5000x1 (ix2 p (0 : Fin 1)) = x (ix1 p) :=
  shapeCast_apply x shapeCasts_S5000_S5000x1 _ _ (by
    rw [Shape.rowMajor_val_two, Shape.rowMajor_val_one]
    show p.val = p.val * 1 + 0
    omega)

/-- A [5000, 1] column broadcast along the 40 columns. -/
theorem spread_apply (x : FVec Ideal S5000x1 .f32) (p : Fin 5000) (q : Fin 40) :
    broadcastTo S5000x40 x broadcasts_S5000x1_S5000x40 (ix2 p q) = x (ix2 p (0 : Fin 1)) :=
  broadcastTo_apply x broadcasts_S5000x1_S5000x40 (ix2 p q) (ix2 p (0 : Fin 1)) fun a =>
    match a with
    | ⟨0, _⟩ => by show p.val = if (5000 : Nat) = 1 then 0 else p.val; rw [if_neg (by decide)]
    | ⟨1, _⟩ => by show (0 : Nat) = if (1 : Nat) = 1 then 0 else q.val; rw [if_pos rfl]

/-- A block's shifted logits at (p, q): the row function of row `p`. -/
theorem blockShift_apply (z : FVec Ideal S5000x40 .f32) (p : Fin 5000) (q : Fin 40) :
    blockShift z (ix2 p q) = Cert.Gcn.rowShift (fun k => z (ix2 p k)) q := by
  unfold blockShift
  have hmax := Ideal.multiReduction_maximumf_single z 0xFF800000#32 reduces_S5000x40_S5000 (.inl rfl) rfl (ix1 p)
  rw [subf_apply, spread_apply, column_apply, maximumf_apply, hmax]
  have e : (z ∘ (reduces_S5000x40_S5000 : S5000x40.Reduces [1] S5000).lift (ix1 p)) = fun k => z (ix2 p k) :=
    funext fun k => congrArg z (lift_block p k)
  rw [e]
  rfl

/-- A block's log_softmax at (p, q): the row function of row `p`. -/
theorem blockLogSoftmax_apply (z : FVec Ideal S5000x40 .f32) (p : Fin 5000) (q : Fin 40) :
    blockLogSoftmax z (ix2 p q) = Cert.Gcn.rowLogSoftmax (fun k => z (ix2 p k)) q := by
  unfold blockLogSoftmax
  rw [subf_apply, blockShift_apply, spread_apply]
  show _ - Ideal.log (shapeCast S5000x1 _ shapeCasts_S5000_S5000x1 (ix2 p (0 : Fin 1))) = _
  have hsum := Ideal.multiReduction_add_single (exp (blockShift z)) 0x00000000#32 reduces_S5000x40_S5000 (.inl rfl) rfl (ix1 p)
  rw [column_apply, hsum]
  unfold Cert.Gcn.rowLogSoftmax
  refine congrArg _ (congrArg _ (Finset.sum_congr rfl fun k _ => ?_))
  exact (congrArg (exp (blockShift z)) (lift_block p k)).trans (congrArg Ideal.exp (blockShift_apply z p k))

/-- The block's logits at (p, q). -/
theorem blockLogits_apply (x0 : Vec Ideal S5000x64 .f32) (x1 : Vec Ideal S1x64 .f32) (x2 : Vec Ideal S64x64 .f32)
    (x3 : Vec Ideal S1x64 .f32) (x4 : Vec Ideal S64x40 .f32) (x5 : Vec Ideal S1x40 .f32) (p : Fin 5000) (q : Fin 40) :
    blockLogits x0 x1 x2 x3 x4 x5 (ix2 p q)
      = (∑ k' : Fin 64, (k1_pay1 (F := Ideal) x0 x1 x2 (ix2 p k') + x3 (ix2 (0 : Fin 1) k')) * x4 (ix2 k' q)) + x5 (ix2 (0 : Fin 1) q) := by
  unfold blockLogits
  rw [addf_apply]
  refine congrArg₂ (· + ·) ((matmul40_apply _ _ p q).trans (Finset.sum_congr rfl fun k _ => ?_)) ?_
  · rw [truncf_apply, truncf_apply, addf_apply, broadcastTo_1b_ab_apply, shapeCast_self]
  · rw [broadcastTo_1b_ab_apply, shapeCast_self]

/-- The third launch's stored value at an index `y = (p, q)` of the block: the row function of the logits' row `p`. -/
theorem head_at (x0 : Vec Ideal S5000x64 .f32) (x1 : Vec Ideal S1x64 .f32) (x2 : Vec Ideal S64x64 .f32)
    (x3 : Vec Ideal S1x64 .f32) (x4 : Vec Ideal S64x40 .f32) (x5 : Vec Ideal S1x40 .f32) (y : S5000x40.Idx)
    (p : Fin 5000) (q : Fin 40) (hy : y = ix2 p q) :
    k2_pay1 (F := Ideal) x0 x1 x2 x3 x4 x5 y = Cert.Gcn.rowLogSoftmax (fun k => blockLogits x0 x1 x2 x3 x4 x5 (ix2 p k)) q := by
  rw [hy, head_payload, blockLogSoftmax_apply]

section Launch2

variable (V : (c : Dev nD) → (b : Ref sig .tc) → Buf (Elt Ideal) ((c : Thread nD τ).loc b))

/-- Window 0's block index over the twenty points. -/
theorem at2_0 : ∀ t : Fin cfg2.N, win2_0.index t 0 = t.val ∧ win2_0.index t 1 = 0 :=
  (by decide +kernel : ∀ t : Fin grid2.N, _)

/-- The propagated array's block at point `t` is rows 5000 t … 5000 t + 4999 of the array. -/
theorem rows2_0 (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v59 : S100000x64.Idx → Elt Ideal .f32) i := by
  unfold iblk2
  rw [View.read_apply]
  show V c main_v59 _ = V c main_v59 _
  refine congrArg _ (funext fun a => Fin.ext ?_)
  match a with
  | ⟨0, _⟩ => show win2_0.index t 0 * 5000 + 1 * (y 0).val = (i 0).val; rw [(at2_0 t).1, h0]; omega
  | ⟨1, _⟩ => show win2_0.index t 1 * 64 + 1 * (y 1).val = (i 1).val; rw [(at2_0 t).2, h1]; omega

/-- Window 1's block index over the twenty points. -/
theorem at2_1 : ∀ t : Fin cfg2.N, win2_1.index t 0 = 0 ∧ win2_1.index t 1 = 0 :=
  (by decide +kernel : ∀ t : Fin grid2.N, _)

/-- The first bias row's block at every point is the whole [1, 64] array. -/
theorem whole2_1 (c : Dev nD) (t : Fin cfg2.N) (y : S1x64.Idx) :
    (iblk2 V c 1 t : Vec Ideal S1x64 .f32) y = (V c main_v60 : S1x64.Idx → Elt Ideal .f32) y := by
  unfold iblk2
  rw [View.read_apply]
  show V c main_v60 _ = V c main_v60 _
  refine congrArg _ (funext fun a => Fin.ext ?_)
  match a with
  | ⟨0, _⟩ => show win2_1.index t 0 * 1 + 1 * (y 0).val = (y 0).val; rw [(at2_1 t).1]; omega
  | ⟨1, _⟩ => show win2_1.index t 1 * 64 + 1 * (y 1).val = (y 1).val; rw [(at2_1 t).2]; omega

/-- Window 2's block index over the twenty points. -/
theorem at2_2 : ∀ t : Fin cfg2.N, win2_2.index t 0 = 0 ∧ win2_2.index t 1 = 0 :=
  (by decide +kernel : ∀ t : Fin grid2.N, _)

/-- The first weights' block at every point is the whole matrix. -/
theorem whole2_2 (c : Dev nD) (t : Fin cfg2.N) (y : S64x64.Idx) :
    (iblk2 V c 2 t : Vec Ideal S64x64 .f32) y = (V c main_arg6 : S64x64.Idx → Elt Ideal .f32) y := by
  unfold iblk2
  rw [View.read_apply]
  show V c main_arg6 _ = V c main_arg6 _
  refine congrArg _ (funext fun a => Fin.ext ?_)
  match a with
  | ⟨0, _⟩ => show win2_2.index t 0 * 64 + 1 * (y 0).val = (y 0).val; rw [(at2_2 t).1]; omega
  | ⟨1, _⟩ => show win2_2.index t 1 * 64 + 1 * (y 1).val = (y 1).val; rw [(at2_2 t).2]; omega

/-- Window 3's block index over the twenty points. -/
theorem at2_3 : ∀ t : Fin cfg2.N, win2_3.index t 0 = 0 ∧ win2_3.index t 1 = 0 :=
  (by decide +kernel : ∀ t : Fin grid2.N, _)

/-- The second bias row's block at every point is the whole [1, 64] array. -/
theorem whole2_3 (c : Dev nD) (t : Fin cfg2.N) (y : S1x64.Idx) :
    (iblk2 V c 3 t : Vec Ideal S1x64 .f32) y = (V c main_v61 : S1x64.Idx → Elt Ideal .f32) y := by
  unfold iblk2
  rw [View.read_apply]
  show V c main_v61 _ = V c main_v61 _
  refine congrArg _ (funext fun a => Fin.ext ?_)
  match a with
  | ⟨0, _⟩ => show win2_3.index t 0 * 1 + 1 * (y 0).val = (y 0).val; rw [(at2_3 t).1]; omega
  | ⟨1, _⟩ => show win2_3.index t 1 * 64 + 1 * (y 1).val = (y 1).val; rw [(at2_3 t).2]; omega

/-- Window 4's block index over the twenty points. -/
theorem at2_4 : ∀ t : Fin cfg2.N, win2_4.index t 0 = 0 ∧ win2_4.index t 1 = 0 :=
  (by decide +kernel : ∀ t : Fin grid2.N, _)

/-- The second weights' block at every point is the whole matrix. -/
theorem whole2_4 (c : Dev nD) (t : Fin cfg2.N) (y : S64x40.Idx) :
    (iblk2 V c 4 t : Vec Ideal S64x40 .f32) y = (V c main_arg8 : S64x40.Idx → Elt Ideal .f32) y := by
  unfold iblk2
  rw [View.read_apply]
  show V c main_arg8 _ = V c main_arg8 _
  refine congrArg _ (funext fun a => Fin.ext ?_)
  match a with
  | ⟨0, _⟩ => show win2_4.index t 0 * 64 + 1 * (y 0).val = (y 0).val; rw [(at2_4 t).1]; omega
  | ⟨1, _⟩ => show win2_4.index t 1 * 40 + 1 * (y 1).val = (y 1).val; rw [(at2_4 t).2]; omega

/-- Window 5's block index over the twenty points. -/
theorem at2_5 : ∀ t : Fin cfg2.N, win2_5.index t 0 = 0 ∧ win2_5.index t 1 = 0 :=
  (by decide +kernel : ∀ t : Fin grid2.N, _)

/-- The third bias row's block at every point is the whole [1, 40] array. -/
theorem whole2_5 (c : Dev nD) (t : Fin cfg2.N) (y : S1x40.Idx) :
    (iblk2 V c 5 t : Vec Ideal S1x40 .f32) y = (V c main_v62 : S1x40.Idx → Elt Ideal .f32) y := by
  unfold iblk2
  rw [View.read_apply]
  show V c main_v62 _ = V c main_v62 _
  refine congrArg _ (funext fun a => Fin.ext ?_)
  match a with
  | ⟨0, _⟩ => show win2_5.index t 0 * 1 + 1 * (y 0).val = (y 0).val; rw [(at2_5 t).1]; omega
  | ⟨1, _⟩ => show win2_5.index t 1 * 40 + 1 * (y 1).val = (y 1).val; rw [(at2_5 t).2]; omega

/-- Window 6's block index over the twenty points. -/
theorem at2_6 : ∀ t : Fin cfg2.N, win2_6.index t 0 = t.val ∧ win2_6.index t 1 = 0 :=
  (by decide +kernel : ∀ t : Fin grid2.N, _)

/-- What point `t` writes back is block `t` of the head of the array the launch finds, the three bias rows it
    finds being the biases `b2`, `b3`, `b4` kept as one-row arrays. -/
theorem flushed2 (c : Dev nD) (t : Fin cfg2.N) (b2 b3 : FVec Ideal S64 .f32) (b4 : FVec Ideal S40 .f32)
    (hb2 : (V c main_v60 : S1x64.Idx → Elt Ideal .f32) = shapeCast S1x64 b2 shapeCasts_S64_S1x64)
    (hb3 : (V c main_v61 : S1x64.Idx → Elt Ideal .f32) = shapeCast S1x64 b3 shapeCasts_S64_S1x64)
    (hb4 : (V c main_v62 : S1x40.Idx → Elt Ideal .f32) = shapeCast S1x40 b4 shapeCasts_S40_S1x40) :
    (dat2 V c).flushed 6 t = ((cfg2.win 6).blk t).view.read (Elt Ideal) (Cert.Gcn.head (F := Ideal) (V c main_v59) b2 (V c main_arg6) b3 (V c main_arg8) b4) := by
  show (cfg2.win 6).cut (grid2.coords t) ((dat2 V c).after 6 t) = _
  rw [after2_6]
  unfold out2_6
  rw [View.canon_unit_zero zeros2]
  simp only [View.ld_unit_zero (S := S5000x64) zeros2, View.ld_unit_zero (S := S1x64) zeros2, View.ld_unit_zero (S := S64x64) zeros2,
    View.ld_unit_zero (S := S64x40) zeros2, View.ld_unit_zero (S := S1x40) zeros2]
  funext j
  show k2_pay1 (F := Ideal) (iblk2 V c 0 t) (iblk2 V c 1 t) (iblk2 V c 2 t) (iblk2 V c 3 t) (iblk2 V c 4 t) (iblk2 V c 5 t) j
    = (Cert.Gcn.head (F := Ideal) (V c main_v59) b2 (V c main_arg6) b3 (V c main_arg8) b4) (((cfg2.win 6).blk t).view.emb j)
  have hN : cfg2.N = 20 := N_2
  have hj0 : (j 0).val < 5000 := (j 0).isLt
  have hj1 : (j 1).val < 40 := (j 1).isLt
  have ht : t.val < 20 := hN ▸ t.isLt
  have hy : (j : S5000x40.Idx) = ix2 (⟨(j 0).val, hj0⟩ : Fin 5000) (⟨(j 1).val, hj1⟩ : Fin 40) :=
    funext fun a => Fin.ext (by
      match a with
      | ⟨0, _⟩ => rfl
      | ⟨1, _⟩ => rfl)
  have he : ((cfg2.win 6).blk t).view.emb j
      = (ix2 (⟨5000 * t.val + (j 0).val, by omega⟩ : Fin 100000) (⟨(j 1).val, hj1⟩ : Fin 40) : S100000x40.Idx) :=
    funext fun a => Fin.ext (by
      match a with
      | ⟨0, _⟩ => show win2_6.index t 0 * 5000 + 1 * (j 0).val = 5000 * t.val + (j 0).val; rw [(at2_6 t).1]; omega
      | ⟨1, _⟩ => show win2_6.index t 1 * 40 + 1 * (j 1).val = (j 1).val; rw [(at2_6 t).2]; omega)
  rw [he, head_at _ _ _ _ _ _ j _ _ hy]
  unfold Cert.Gcn.head Cert.Gcn.logits
  rw [Cert.Gcn.logSoftmax_apply]
  refine congrArg (fun f => Cert.Gcn.rowLogSoftmax f _) (funext fun k => ?_)
  rw [blockLogits_apply, Cert.Gcn.addBias40_apply, Cert.Gcn.dense40_apply, whole2_5 V c t, hb4, shapeCast_a_1a_apply]
  refine congrArg₂ (· + ·) (Finset.sum_congr rfl fun k' _ => ?_) rfl
  rw [project2_apply, Cert.Gcn.addBias64_apply, Cert.Gcn.dense64_apply, whole2_3 V c t, hb3, shapeCast_a_1a_apply, whole2_4 V c t]
  refine congrArg₂ (· * ·) (congrArg₂ (· + ·) (Finset.sum_congr rfl fun k'' _ => ?_) rfl) rfl
  rw [rows2_0 V c t (ix2 (⟨(j 0).val, hj0⟩ : Fin 5000) k'') (ix2 (⟨5000 * t.val + (j 0).val, by omega⟩ : Fin 100000) k'') rfl rfl,
    whole2_1 V c t, hb2, shapeCast_a_1a_apply, whole2_2 V c t, Cert.Gcn.relu64_apply, Cert.Gcn.addBias64_apply]

/-- An index of the result is in point `t`'s block iff each coordinate is in the block's range on its axis. -/
theorem mem_block2 (t : Fin cfg2.N) (i : S100000x40.Idx) :
    i ∈ ((cfg2.win 6).blk t).view.set ↔ ∀ a : Fin 2, win2_6.index t a * S5000x40.size a ≤ (i a).val
      ∧ (i a).val < win2_6.index t a * S5000x40.size a + S5000x40.size a := by
  show i ∈ ((View.whole main_v63).slice (win2_6.rect t)).set ↔ _
  rw [View.set_slice_whole, Rect.mem_set_unit]
  exact Iff.rfl

/-- The twenty blocks tile the 100000 rows: row r is in block r / 5000. -/
theorem cover2 (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_6 _, ?_⟩
  rw [mem_block2]
  intro a
  match a with
  | ⟨0, _⟩ =>
    show win2_6.index _ 0 * 5000 ≤ (i 0).val ∧ (i 0).val < win2_6.index _ 0 * 5000 + 5000
    rw [(at2_6 _).1]
    show (i 0).val / 5000 * 5000 ≤ (i 0).val ∧ (i 0).val < (i 0).val / 5000 * 5000 + 5000
    omega
  | ⟨1, _⟩ =>
    show win2_6.index _ 1 * 40 ≤ (i 1).val ∧ (i 1).val < win2_6.index _ 1 * 40 + 40
    rw [(at2_6 _).2]
    omega

/-- The array the third launch leaves. -/
theorem final2 (c : Dev nD) (b2 b3 : FVec Ideal S64 .f32) (b4 : FVec Ideal S40 .f32)
    (hb2 : (V c main_v60 : S1x64.Idx → Elt Ideal .f32) = shapeCast S1x64 b2 shapeCasts_S64_S1x64)
    (hb3 : (V c main_v61 : S1x64.Idx → Elt Ideal .f32) = shapeCast S1x64 b3 shapeCasts_S64_S1x64)
    (hb4 : (V c main_v62 : S1x40.Idx → Elt Ideal .f32) = shapeCast S1x40 b4 shapeCasts_S40_S1x40) :
    (dat2 V c).arrAt 6 cfg2.N = Cert.Gcn.head (F := Ideal) (V c main_v59) b2 (V c main_arg6) b3 (V c main_arg8) b4 :=
  (dat2 V c).arrAt_eq_of_cover 6 _ (fun t _ => flushed2 V c t b2 b3 b4 hb2 hb3 hb4) cover2

end Launch2

end Cert.KernelIdeal.Rows

end
-- ==== Proof.Boundaries.lean ====
/-
  The program with three launches, boundary by boundary. Before the first launch the host computes the edges'
  senders, receivers and weights; the first launch leaves x·W1; the host propagates it; the second launch leaves
  relu(P(x·W1) + b1)·W2; the host propagates that; the third launch leaves the head of it. Each host stretch, over any
  contents of the buffers, leaves its results at the network's stages of what it finds and leaves alone what it does
  not write; each launch writes its output array only. Read from the launch memory on, the result buffer ends at the
  network of the ten argument arrays.
-/
import proofs.«148974_j25589415149714_1_alg».proof.Proof.Classify
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen Idealize.ShloMosaic.StableHlo

section Stretches

variable {F : FTy → Type} [FloatOps F]

/-- The fold of a list cut in two. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The host operations before the first launch, as one line. -/
abbrev opsEdges : List (HloOp τ sig (Elt F)) := hostOps0 ++ (hostOps0_1 ++ hostOps0_2)

/-- A buffer that no operation of a listed stretch writes keeps its contents through the stretch. -/
local macro "untouched " l:ident : tactic => `(tactic| (
  refine StableHlo.after_of_forall_not_mem _ _ (List.forall_iff_forall_mem.mp ?_)
  simp only [$l:ident, hostOps0, hostOps0_1, hostOps0_2, List.cons_append, List.nil_append, List.Forall, StableHlo.nullary_writes,
    StableHlo.unary_writes, StableHlo.binary_writes, StableHlo.ternary_writes, StableHlo.quaternary_writes,
    StableHlo.reshape_writes, Finset.mem_singleton]
  repeat' apply And.intro
  all_goals exact StableHlo.devRef_ne_of_ne (by decide)))

theorem keepsEdges_arg0 (X : Valuation τ sig (Elt F)) : StableHlo.after opsEdges X (Proc.devRef .tc main_arg0) = X (Proc.devRef .tc main_arg0) := by untouched opsEdges
theorem keepsEdges_arg2 (X : Valuation τ sig (Elt F)) : StableHlo.after opsEdges X (Proc.devRef .tc main_arg2) = X (Proc.devRef .tc main_arg2) := by untouched opsEdges
theorem keepsEdges_arg3 (X : Valuation τ sig (Elt F)) : StableHlo.after opsEdges X (Proc.devRef .tc main_arg3) = X (Proc.devRef .tc main_arg3) := by untouched opsEdges
theorem keepsEdges_arg4 (X : Valuation τ sig (Elt F)) : StableHlo.after opsEdges X (Proc.devRef .tc main_arg4) = X (Proc.devRef .tc main_arg4) := by untouched opsEdges
theorem keepsEdges_arg5 (X : Valuation τ sig (Elt F)) : StableHlo.after opsEdges X (Proc.devRef .tc main_arg5) = X (Proc.devRef .tc main_arg5) := by untouched opsEdges
theorem keepsEdges_arg6 (X : Valuation τ sig (Elt F)) : StableHlo.after opsEdges X (Proc.devRef .tc main_arg6) = X (Proc.devRef .tc main_arg6) := by untouched opsEdges
theorem keepsEdges_arg7 (X : Valuation τ sig (Elt F)) : StableHlo.after opsEdges X (Proc.devRef .tc main_arg7) = X (Proc.devRef .tc main_arg7) := by untouched opsEdges
theorem keepsEdges_arg8 (X : Valuation τ sig (Elt F)) : StableHlo.after opsEdges X (Proc.devRef .tc main_arg8) = X (Proc.devRef .tc main_arg8) := by untouched opsEdges
theorem keepsEdges_arg9 (X : Valuation τ sig (Elt F)) : StableHlo.after opsEdges X (Proc.devRef .tc main_arg9) = X (Proc.devRef .tc main_arg9) := by untouched opsEdges
theorem keepsHost1_v3 (X : Valuation τ sig (Elt F)) : StableHlo.after hostOps1 X (Proc.devRef .tc main_v3) = X (Proc.devRef .tc main_v3) := by untouched hostOps1
theorem keepsHost1_v6 (X : Valuation τ sig (Elt F)) : StableHlo.after hostOps1 X (Proc.devRef .tc main_v6) = X (Proc.devRef .tc main_v6) := by untouched hostOps1
theorem keepsHost1_v30 (X : Valuation τ sig (Elt F)) : StableHlo.after hostOps1 X (Proc.devRef .tc main_v30) = X (Proc.devRef .tc main_v30) := by untouched hostOps1
theorem keepsHost1_arg4 (X : Valuation τ sig (Elt F)) : StableHlo.after hostOps1 X (Proc.devRef .tc main_arg4) = X (Proc.devRef .tc main_arg4) := by untouched hostOps1
theorem keepsHost1_arg5 (X : Valuation τ sig (Elt F)) : StableHlo.after hostOps1 X (Proc.devRef .tc main_arg5) = X (Proc.devRef .tc main_arg5) := by untouched hostOps1
theorem keepsHost1_arg6 (X : Valuation τ sig (Elt F)) : StableHlo.after hostOps1 X (Proc.devRef .tc main_arg6) = X (Proc.devRef .tc main_arg6) := by untouched hostOps1
theorem keepsHost1_arg7 (X : Valuation τ sig (Elt F)) : StableHlo.after hostOps1 X (Proc.devRef .tc main_arg7) = X (Proc.devRef .tc main_arg7) := by untouched hostOps1
theorem keepsHost1_arg8 (X : Valuation τ sig (Elt F)) : StableHlo.after hostOps1 X (Proc.devRef .tc main_arg8) = X (Proc.devRef .tc main_arg8) := by untouched hostOps1
theorem keepsHost1_arg9 (X : Valuation τ sig (Elt F)) : StableHlo.after hostOps1 X (Proc.devRef .tc main_arg9) = X (Proc.devRef .tc main_arg9) := by untouched hostOps1
theorem keepsHost2_arg6 (X : Valuation τ sig (Elt F)) : StableHlo.after hostOps2 X (Proc.devRef .tc main_arg6) = X (Proc.devRef .tc main_arg6) := by untouched hostOps2
theorem keepsHost2_arg8 (X : Valuation τ sig (Elt F)) : StableHlo.after hostOps2 X (Proc.devRef .tc main_arg8) = X (Proc.devRef .tc main_arg8) := by untouched hostOps2

attribute [local irreducible] Host.gather Host.scatterAdd Host.powf concatenate

set_option maxRecDepth 8192 in
/-- Before the first launch the senders are in their buffer, -/
theorem edges_senders (X : Valuation τ sig (Elt F)) :
    after opsEdges X (Proc.devRef .tc main_v3) = Cert.Gcn.senders (F := F) (X (Proc.devRef .tc main_arg1)) := by
  simp only [opsEdges, hostOps0, hostOps0_1, hostOps0_2, List.cons_append, List.nil_append]
  after_results_simp
  rfl

set_option maxRecDepth 8192 in
/-- the receivers in theirs, -/
theorem edges_receivers (X : Valuation τ sig (Elt F)) :
    after opsEdges X (Proc.devRef .tc main_v6) = Cert.Gcn.receivers (F := F) (X (Proc.devRef .tc main_arg1)) := by
  simp only [opsEdges, hostOps0, hostOps0_1, hostOps0_2, List.cons_append, List.nil_append]
  after_results_simp
  rfl

set_option maxRecDepth 8192 in
set_option maxHeartbeats 4000000 in
/-- and the edges' weights in theirs. -/
theorem edges_weight (X : Valuation τ sig (Elt F)) :
    after opsEdges X (Proc.devRef .tc main_v30) = Cert.Gcn.edgeWeight (F := F) (X (Proc.devRef .tc main_arg1)) := by
  simp only [opsEdges, hostOps0, hostOps0_1, hostOps0_2, List.cons_append, List.nil_append]
  after_results_simp
  rfl

set_option maxRecDepth 8192 in
set_option maxHeartbeats 4000000 in
/-- Between the first two launches the host propagates the first launch's output -/
theorem host1_propagate (X : Valuation τ sig (Elt F)) :
    after hostOps1 X (Proc.devRef .tc main_v44)
      = Cert.Gcn.propagateWith (F := F) (X (Proc.devRef .tc main_v31)) (X (Proc.devRef .tc main_v3)) (X (Proc.devRef .tc main_v6)) (X (Proc.devRef .tc main_v30)) := by
  after_results_simp
  rfl

/-- and keeps the first bias as a [1, 64] array. -/
theorem host1_bias (X : Valuation τ sig (Elt F)) :
    (after hostOps1 X (Proc.devRef .tc main_v45) : S1x64.Idx → Elt F .f32) = shapeCast S1x64 (X (Proc.devRef .tc main_arg3)) shapeCasts_S64_S1x64 := by
  after_results_simp
  rfl

set_option maxRecDepth 8192 in
set_option maxHeartbeats 4000000 in
/-- Between the last two launches the host propagates the second launch's output -/
theorem host2_propagate (X : Valuation τ sig (Elt F)) :
    after hostOps2 X (Proc.devRef .tc main_v59)
      = Cert.Gcn.propagateWith (F := F) (X (Proc.devRef .tc main_v46)) (X (Proc.devRef .tc main_v3)) (X (Proc.devRef .tc main_v6)) (X (Proc.devRef .tc main_v30)) := by
  after_results_simp
  rfl

/-- and keeps the three remaining biases as one-row arrays. -/
theorem host2_bias2 (X : Valuation τ sig (Elt F)) :
    (after hostOps2 X (Proc.devRef .tc main_v60) : S1x64.Idx → Elt F .f32) = shapeCast S1x64 (X (Proc.devRef .tc main_arg5)) shapeCasts_S64_S1x64 := by
  after_results_simp
  rfl
theorem host2_bias3 (X : Valuation τ sig (Elt F)) :
    (after hostOps2 X (Proc.devRef .tc main_v61) : S1x64.Idx → Elt F .f32) = shapeCast S1x64 (X (Proc.devRef .tc main_arg7)) shapeCasts_S64_S1x64 := by
  after_results_simp
  rfl
theorem host2_bias4 (X : Valuation τ sig (Elt F)) :
    (after hostOps2 X (Proc.devRef .tc main_v62) : S1x40.Idx → Elt F .f32) = shapeCast S1x40 (X (Proc.devRef .tc main_arg9)) shapeCasts_S40_S1x40 := by
  after_results_simp
  rfl

end Stretches

end Cert.KernelIdeal.Rows

end
-- ==== Proof.KernelRun.lean ====
/-
  The run of the program with three launches, with its result named. Every weakly fair execution ends, without a
  fault, with each buffer that is not scoped to a launch at the contents the last of the nine boundaries gives it: the
  memory at launch pushed through the host operations before the first launch, the first launch's write-backs, the host
  operations between the launches, and so on to the third launch's write-backs. The result buffer is one of those
  buffers, so it ends at that boundary's contents; the ten argument arrays end as launched.
-/
import proofs.«148974_j25589415149714_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Rows

end
-- ==== Proof.KernelValue.lean ====
/-
  From the launch memory to the result. The buffers' contents at the nine boundaries of the run are a fold: host
  stretch, launch, host stretch, launch, host stretch, launch. Followed boundary by boundary with the three launches'
  final arrays and the host stretches' results, the result buffer ends holding the network of the ten argument arrays.
-/
import proofs.«148974_j25589415149714_1_alg».proof.Proof.Boundaries
import proofs.«148974_j25589415149714_1_alg».proof.Proof.KernelRun

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen Idealize.ShloMosaic.StableHlo

variable (m : (ℓ : Loc nD τ sig) → Buf (Elt Ideal) ℓ) (ρ : Dev nD → PrngReg)

/-- The contents when the first launch is entered are the one line of host operations' fold over the launch memory. -/
theorem entry_eq (c : Dev nD) : W3 m ρ c = after (opsEdges (F := Ideal)) (W0 m ρ c) :=
  (by rw [after_append, after_append] :
    after (hostOps0 ++ (hostOps0_1 ++ hostOps0_2)) (W0 m ρ c) = after hostOps0_2 (after hostOps0_1 (after hostOps0 (W0 m ρ c)))).symm

/-! ## When the first launch is entered -/

theorem b3_v3 (c : Dev nD) : W3 m ρ c (Proc.devRef .tc main_v3) = Cert.Gcn.senders (F := Ideal) (m ((c.tc : Thread nD τ).loc main_arg1)) :=
  (congrFun (entry_eq m ρ c) _).trans (edges_senders (W0 m ρ c))
theorem b3_v6 (c : Dev nD) : W3 m ρ c (Proc.devRef .tc main_v6) = Cert.Gcn.receivers (F := Ideal) (m ((c.tc : Thread nD τ).loc main_arg1)) :=
  (congrFun (entry_eq m ρ c) _).trans (edges_receivers (W0 m ρ c))
theorem b3_v30 (c : Dev nD) : W3 m ρ c (Proc.devRef .tc main_v30) = Cert.Gcn.edgeWeight (F := Ideal) (m ((c.tc : Thread nD τ).loc main_arg1)) :=
  (congrFun (entry_eq m ρ c) _).trans (edges_weight (W0 m ρ c))
theorem b3_arg0 (c : Dev nD) : W3 m ρ c (Proc.devRef .tc main_arg0) = (m ((c.tc : Thread nD τ).loc main_arg0)) :=
  (congrFun (entry_eq m ρ c) _).trans (keepsEdges_arg0 (W0 m ρ c))
theorem b3_arg2 (c : Dev nD) : W3 m ρ c (Proc.devRef .tc main_arg2) = (m ((c.tc : Thread nD τ).loc main_arg2)) :=
  (congrFun (entry_eq m ρ c) _).trans (keepsEdges_arg2 (W0 m ρ c))
theorem b3_arg3 (c : Dev nD) : W3 m ρ c (Proc.devRef .tc main_arg3) = (m ((c.tc : Thread nD τ).loc main_arg3)) :=
  (congrFun (entry_eq m ρ c) _).trans (keepsEdges_arg3 (W0 m ρ c))
theorem b3_arg4 (c : Dev nD) : W3 m ρ c (Proc.devRef .tc main_arg4) = (m ((c.tc : Thread nD τ).loc main_arg4)) :=
  (congrFun (entry_eq m ρ c) _).trans (keepsEdges_arg4 (W0 m ρ c))
theorem b3_arg5 (c : Dev nD) : W3 m ρ c (Proc.devRef .tc main_arg5) = (m ((c.tc : Thread nD τ).loc main_arg5)) :=
  (congrFun (entry_eq m ρ c) _).trans (keepsEdges_arg5 (W0 m ρ c))
theorem b3_arg6 (c : Dev nD) : W3 m ρ c (Proc.devRef .tc main_arg6) = (m ((c.tc : Thread nD τ).loc main_arg6)) :=
  (congrFun (entry_eq m ρ c) _).trans (keepsEdges_arg6 (W0 m ρ c))
theorem b3_arg7 (c : Dev nD) : W3 m ρ c (Proc.devRef .tc main_arg7) = (m ((c.tc : Thread nD τ).loc main_arg7)) :=
  (congrFun (entry_eq m ρ c) _).trans (keepsEdges_arg7 (W0 m ρ c))
theorem b3_arg8 (c : Dev nD) : W3 m ρ c (Proc.devRef .tc main_arg8) = (m ((c.tc : Thread nD τ).loc main_arg8)) :=
  (congrFun (entry_eq m ρ c) _).trans (keepsEdges_arg8 (W0 m ρ c))
theorem b3_arg9 (c : Dev nD) : W3 m ρ c (Proc.devRef .tc main_arg9) = (m ((c.tc : Thread nD τ).loc main_arg9)) :=
  (congrFun (entry_eq m ρ c) _).trans (keepsEdges_arg9 (W0 m ρ c))

/-! ## After the first launch -/

theorem b4_v31 (c : Dev nD) : W4 m ρ c (Proc.devRef .tc main_v31) = Cert.Gcn.dense64 (F := Ideal) (m ((c.tc : Thread nD τ).loc main_arg0)) (m ((c.tc : Thread nD τ).loc main_arg2)) :=
  (W4_arr m ρ c 2).trans ((final0 (V3 m ρ) c).trans (congrArg₂ (Cert.Gcn.dense64 (F := Ideal)) (b3_arg0 m ρ c) (b3_arg2 m ρ c)))
theorem b4_v3 (c : Dev nD) : W4 m ρ c (Proc.devRef .tc main_v3) = Cert.Gcn.senders (F := Ideal) (m ((c.tc : Thread nD τ).loc main_arg1)) :=
  (W4_of_ne m ρ c main_v3 (by decide)).trans (b3_v3 m ρ c)
theorem b4_v6 (c : Dev nD) : W4 m ρ c (Proc.devRef .tc main_v6) = Cert.Gcn.receivers (F := Ideal) (m ((c.tc : Thread nD τ).loc main_arg1)) :=
  (W4_of_ne m ρ c main_v6 (by decide)).trans (b3_v6 m ρ c)
theorem b4_v30 (c : Dev nD) : W4 m ρ c (Proc.devRef .tc main_v30) = Cert.Gcn.edgeWeight (F := Ideal) (m ((c.tc : Thread nD τ).loc main_arg1)) :=
  (W4_of_ne m ρ c main_v30 (by decide)).trans (b3_v30 m ρ c)
theorem b4_arg3 (c : Dev nD) : W4 m ρ c (Proc.devRef .tc main_arg3) = (m ((c.tc : Thread nD τ).loc main_arg3)) :=
  (W4_of_ne m ρ c main_arg3 (by decide)).trans (b3_arg3 m ρ c)
theorem b4_arg4 (c : Dev nD) : W4 m ρ c (Proc.devRef .tc main_arg4) = (m ((c.tc : Thread nD τ).loc main_arg4)) :=
  (W4_of_ne m ρ c main_arg4 (by decide)).trans (b3_arg4 m ρ c)
theorem b4_arg5 (c : Dev nD) : W4 m ρ c (Proc.devRef .tc main_arg5) = (m ((c.tc : Thread nD τ).loc main_arg5)) :=
  (W4_of_ne m ρ c main_arg5 (by decide)).trans (b3_arg5 m ρ c)
theorem b4_arg6 (c : Dev nD) : W4 m ρ c (Proc.devRef .tc main_arg6) = (m ((c.tc : Thread nD τ).loc main_arg6)) :=
  (W4_of_ne m ρ c main_arg6 (by decide)).trans (b3_arg6 m ρ c)
theorem b4_arg7 (c : Dev nD) : W4 m ρ c (Proc.devRef .tc main_arg7) = (m ((c.tc : Thread nD τ).loc main_arg7)) :=
  (W4_of_ne m ρ c main_arg7 (by decide)).trans (b3_arg7 m ρ c)
theorem b4_arg8 (c : Dev nD) : W4 m ρ c (Proc.devRef .tc main_arg8) = (m ((c.tc : Thread nD τ).loc main_arg8)) :=
  (W4_of_ne m ρ c main_arg8 (by decide)).trans (b3_arg8 m ρ c)
theorem b4_arg9 (c : Dev nD) : W4 m ρ c (Proc.devRef .tc main_arg9) = (m ((c.tc : Thread nD τ).loc main_arg9)) :=
  (W4_of_ne m ρ c main_arg9 (by decide)).trans (b3_arg9 m ρ c)

/-! ## When the second launch is entered -/

theorem b5_v44 (c : Dev nD) : W5 m ρ c (Proc.devRef .tc main_v44) = Cert.Gcn.propagate (F := Ideal) (Cert.Gcn.dense64 (F := Ideal) (m ((c.tc : Thread nD τ).loc main_arg0)) (m ((c.tc : Thread nD τ).loc main_arg2))) (m ((c.tc : Thread nD τ).loc main_arg1)) :=
  (host1_propagate (W4 m ρ c)).trans (by rw [b4_v31 m ρ c, b4_v3 m ρ c, b4_v6 m ρ c, b4_v30 m ρ c]; rfl)
theorem b5_v45 (c : Dev nD) : (W5 m ρ c (Proc.devRef .tc main_v45) : S1x64.Idx → Elt Ideal .f32) = shapeCast S1x64 (m ((c.tc : Thread nD τ).loc main_arg3)) shapeCasts_S64_S1x64 :=
  (host1_bias (W4 m ρ c)).trans (by rw [b4_arg3 m ρ c])
theorem b5_v3 (c : Dev nD) : W5 m ρ c (Proc.devRef .tc main_v3) = Cert.Gcn.senders (F := Ideal) (m ((c.tc : Thread nD τ).loc main_arg1)) := (keepsHost1_v3 (W4 m ρ c)).trans (b4_v3 m ρ c)
theorem b5_v6 (c : Dev nD) : W5 m ρ c (Proc.devRef .tc main_v6) = Cert.Gcn.receivers (F := Ideal) (m ((c.tc : Thread nD τ).loc main_arg1)) := (keepsHost1_v6 (W4 m ρ c)).trans (b4_v6 m ρ c)
theorem b5_v30 (c : Dev nD) : W5 m ρ c (Proc.devRef .tc main_v30) = Cert.Gcn.edgeWeight (F := Ideal) (m ((c.tc : Thread nD τ).loc main_arg1)) := (keepsHost1_v30 (W4 m ρ c)).trans (b4_v30 m ρ c)
theorem b5_arg4 (c : Dev nD) : W5 m ρ c (Proc.devRef .tc main_arg4) = (m ((c.tc : Thread nD τ).loc main_arg4)) := (keepsHost1_arg4 (W4 m ρ c)).trans (b4_arg4 m ρ c)
theorem b5_arg5 (c : Dev nD) : W5 m ρ c (Proc.devRef .tc main_arg5) = (m ((c.tc : Thread nD τ).loc main_arg5)) := (keepsHost1_arg5 (W4 m ρ c)).trans (b4_arg5 m ρ c)
theorem b5_arg6 (c : Dev nD) : W5 m ρ c (Proc.devRef .tc main_arg6) = (m ((c.tc : Thread nD τ).loc main_arg6)) := (keepsHost1_arg6 (W4 m ρ c)).trans (b4_arg6 m ρ c)
theorem b5_arg7 (c : Dev nD) : W5 m ρ c (Proc.devRef .tc main_arg7) = (m ((c.tc : Thread nD τ).loc main_arg7)) := (keepsHost1_arg7 (W4 m ρ c)).trans (b4_arg7 m ρ c)
theorem b5_arg8 (c : Dev nD) : W5 m ρ c (Proc.devRef .tc main_arg8) = (m ((c.tc : Thread nD τ).loc main_arg8)) := (keepsHost1_arg8 (W4 m ρ c)).trans (b4_arg8 m ρ c)
theorem b5_arg9 (c : Dev nD) : W5 m ρ c (Proc.devRef .tc main_arg9) = (m ((c.tc : Thread nD τ).loc main_arg9)) := (keepsHost1_arg9 (W4 m ρ c)).trans (b4_arg9 m ρ c)

/-! ## After the second launch -/

theorem b6_v46 (c : Dev nD) : W6 m ρ c (Proc.devRef .tc main_v46) = Cert.Gcn.dense64 (F := Ideal) (Cert.Gcn.layer1 (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (W6_arr m ρ c 3).trans ((final1 (V5 m ρ) c (m ((c.tc : Thread nD τ).loc main_arg3)) (b5_v45 m ρ c)).trans (by
    show Cert.Gcn.dense64 (F := Ideal) (Cert.Gcn.relu64 (F := Ideal) (Cert.Gcn.addBias64 (F := Ideal) (W5 m ρ c (Proc.devRef .tc main_v44)) (m ((c.tc : Thread nD τ).loc main_arg3)))) (W5 m ρ c (Proc.devRef .tc main_arg4)) = _
    rw [b5_v44 m ρ c, b5_arg4 m ρ c]; rfl))
theorem b6_v3 (c : Dev nD) : W6 m ρ c (Proc.devRef .tc main_v3) = Cert.Gcn.senders (F := Ideal) (m ((c.tc : Thread nD τ).loc main_arg1)) := (W6_of_ne m ρ c main_v3 (by decide)).trans (b5_v3 m ρ c)
theorem b6_v6 (c : Dev nD) : W6 m ρ c (Proc.devRef .tc main_v6) = Cert.Gcn.receivers (F := Ideal) (m ((c.tc : Thread nD τ).loc main_arg1)) := (W6_of_ne m ρ c main_v6 (by decide)).trans (b5_v6 m ρ c)
theorem b6_v30 (c : Dev nD) : W6 m ρ c (Proc.devRef .tc main_v30) = Cert.Gcn.edgeWeight (F := Ideal) (m ((c.tc : Thread nD τ).loc main_arg1)) := (W6_of_ne m ρ c main_v30 (by decide)).trans (b5_v30 m ρ c)
theorem b6_arg5 (c : Dev nD) : W6 m ρ c (Proc.devRef .tc main_arg5) = (m ((c.tc : Thread nD τ).loc main_arg5)) := (W6_of_ne m ρ c main_arg5 (by decide)).trans (b5_arg5 m ρ c)
theorem b6_arg6 (c : Dev nD) : W6 m ρ c (Proc.devRef .tc main_arg6) = (m ((c.tc : Thread nD τ).loc main_arg6)) := (W6_of_ne m ρ c main_arg6 (by decide)).trans (b5_arg6 m ρ c)
theorem b6_arg7 (c : Dev nD) : W6 m ρ c (Proc.devRef .tc main_arg7) = (m ((c.tc : Thread nD τ).loc main_arg7)) := (W6_of_ne m ρ c main_arg7 (by decide)).trans (b5_arg7 m ρ c)
theorem b6_arg8 (c : Dev nD) : W6 m ρ c (Proc.devRef .tc main_arg8) = (m ((c.tc : Thread nD τ).loc main_arg8)) := (W6_of_ne m ρ c main_arg8 (by decide)).trans (b5_arg8 m ρ c)
theorem b6_arg9 (c : Dev nD) : W6 m ρ c (Proc.devRef .tc main_arg9) = (m ((c.tc : Thread nD τ).loc main_arg9)) := (W6_of_ne m ρ c main_arg9 (by decide)).trans (b5_arg9 m ρ c)

/-! ## When the third launch is entered -/

theorem b7_v59 (c : Dev nD) : W7 m ρ c (Proc.devRef .tc main_v59) = Cert.Gcn.propagate (F := Ideal) (Cert.Gcn.dense64 (F := Ideal) (Cert.Gcn.layer1 (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) :=
  (host2_propagate (W6 m ρ c)).trans (by rw [b6_v46 m ρ c, b6_v3 m ρ c, b6_v6 m ρ c, b6_v30 m ρ c]; rfl)
theorem b7_v60 (c : Dev nD) : (W7 m ρ c (Proc.devRef .tc main_v60) : S1x64.Idx → Elt Ideal .f32) = shapeCast S1x64 (m ((c.tc : Thread nD τ).loc main_arg5)) shapeCasts_S64_S1x64 :=
  (host2_bias2 (W6 m ρ c)).trans (by rw [b6_arg5 m ρ c])
theorem b7_v61 (c : Dev nD) : (W7 m ρ c (Proc.devRef .tc main_v61) : S1x64.Idx → Elt Ideal .f32) = shapeCast S1x64 (m ((c.tc : Thread nD τ).loc main_arg7)) shapeCasts_S64_S1x64 :=
  (host2_bias3 (W6 m ρ c)).trans (by rw [b6_arg7 m ρ c])
theorem b7_v62 (c : Dev nD) : (W7 m ρ c (Proc.devRef .tc main_v62) : S1x40.Idx → Elt Ideal .f32) = shapeCast S1x40 (m ((c.tc : Thread nD τ).loc main_arg9)) shapeCasts_S40_S1x40 :=
  (host2_bias4 (W6 m ρ c)).trans (by rw [b6_arg9 m ρ c])
theorem b7_arg6 (c : Dev nD) : W7 m ρ c (Proc.devRef .tc main_arg6) = (m ((c.tc : Thread nD τ).loc main_arg6)) := (keepsHost2_arg6 (W6 m ρ c)).trans (b6_arg6 m ρ c)
theorem b7_arg8 (c : Dev nD) : W7 m ρ c (Proc.devRef .tc main_arg8) = (m ((c.tc : Thread nD τ).loc main_arg8)) := (keepsHost2_arg8 (W6 m ρ c)).trans (b6_arg8 m ρ c)

/-! ## After the third launch -/

/-- The result buffer ends holding the network of the ten argument arrays. -/
theorem value (c : Dev nD) : W8 m ρ c (Proc.devRef .tc main_v63) = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W8_arr m ρ c 6).trans ((final2 (V7 m ρ) c (m ((c.tc : Thread nD τ).loc main_arg5)) (m ((c.tc : Thread nD τ).loc main_arg7)) (m ((c.tc : Thread nD τ).loc main_arg9)) (b7_v60 m ρ c) (b7_v61 m ρ c) (b7_v62 m ρ c)).trans (by
    show Cert.Gcn.head (F := Ideal) (W7 m ρ c (Proc.devRef .tc main_v59)) (m ((c.tc : Thread nD τ).loc main_arg5)) (W7 m ρ c (Proc.devRef .tc main_arg6)) (m ((c.tc : Thread nD τ).loc main_arg7)) (W7 m ρ c (Proc.devRef .tc main_arg8)) (m ((c.tc : Thread nD τ).loc main_arg9)) = _
    rw [b7_v59 m ρ c, b7_arg6 m ρ c, b7_arg8 m ρ c]; rfl))

/-- The run: the result at the network of the arguments, the arguments as launched. -/
theorem run_network : θ_run defs (onTc (τ := τ) (main (F := Ideal))) ⟨m, fun _ => 0, ρ⟩ (fun r => ∀ c : Dev nD,
      r.2.mem ((c.tc : Thread nD τ).loc main_v63) = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_result m ρ)

end Cert.KernelIdeal.Rows

end
-- ==== Proof.RefOps.lean ====
/-
  The reference's @main as a straight line of 111 host operations (the three functions it calls — where, relu,
  log_softmax — stand in their calls' places, over each call's own buffers), cut into seven stretches: the edges'
  senders, receivers and weights; the first layer and the second projection; the second propagation; the logits; and
  log_softmax in three steps (row maximum, shift, log of the sum of exponentials). Every
  weakly fair execution ends with each buffer at the fold of the operations over the launch contents, and the fold of a
  list cut in two is the second piece's fold over the first's.
-/
import proofs.«148974_j25589415149714_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The edges' senders, receivers and weights. -/
abbrev opsEdges : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (StableHlo.TRef.of (T := ⟨S_, .f32⟩) main_cst_3) (StableHlo.TRef.of (T := ⟨S_, .f32⟩) main_call0_v0) id,
    StableHlo.TRef.unary (StableHlo.TRef.of (T := ⟨S_, .f32⟩) main_call0_v0) (StableHlo.TRef.of (T := ⟨S100000, .f32⟩) main_call0_v1) (broadcastInDim S100000 ![] bcast_S_S100000),
    StableHlo.TRef.ternary (StableHlo.TRef.of (T := ⟨S100000, .i1⟩) main_v12) (StableHlo.TRef.of (T := ⟨S100000, .f32⟩) main_v14) (StableHlo.TRef.of (T := ⟨S100000, .f32⟩) main_call0_v1) (StableHlo.TRef.of (T := ⟨S100000, .f32⟩) main_v15) select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The first projection, propagation, bias and relu, and the second projection. -/
abbrev opsLayer1 : List (HloOp τ sig (Elt F)) :=
  [ StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_7 (constantI S_ 32 0#32),
    StableHlo.unary main_c_7 main_v32 (broadcastInDim S1700000 ![] bcast_S_S1700000 : (⟨S_, .i32⟩ : BufTy).Contents (Elt F) → (⟨S1700000, .i32⟩ : BufTy).Contents (Elt F)),
    StableHlo.binary main_v3 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v34 (broadcastInDim S1700000 ![] bcast_S_S1700000 : (⟨S_, .i32⟩ : BufTy).Contents (Elt F) → (⟨S1700000, .i32⟩ : BufTy).Contents (Elt F)),
    StableHlo.binary main_v3 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v39 (broadcastInDim S1700000x1 ![0] bcast_S1700000_S1700000x1_0 : (⟨S1700000, .f32⟩ : BufTy).Contents (Elt F) → (⟨S1700000x1, .f32⟩ : BufTy).Contents (Elt F)),
    StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x64, .f32⟩) main_call1_v0) (broadcastInDim S100000x64 ![] bcast_S_S100000x64),
    StableHlo.TRef.binary (StableHlo.TRef.of (T := ⟨S100000x64, .f32⟩) main_v47) (StableHlo.TRef.of (T := ⟨S100000x64, .f32⟩) main_call1_v0) (StableHlo.TRef.of (T := ⟨S100000x64, .f32⟩) main_v48) maximumf,
    StableHlo.binary main_v48 main_arg4 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second propagation. -/
abbrev opsPropagate2 : List (HloOp τ sig (Elt F)) :=
  [ StableHlo.nullary main_c_10 (constantI S_ 32 0#32),
    StableHlo.unary main_c_10 main_v50 (broadcastInDim S1700000 ![] bcast_S_S1700000 : (⟨S_, .i32⟩ : BufTy).Contents (Elt F) → (⟨S1700000, .i32⟩ : BufTy).Contents (Elt F)),
    StableHlo.binary main_v3 main_v50 main_v51 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v52 (broadcastInDim S1700000 ![] bcast_S_S1700000 : (⟨S_, .i32⟩ : BufTy).Contents (Elt F) → (⟨S1700000, .i32⟩ : BufTy).Contents (Elt F)),
    StableHlo.binary main_v3 main_v52 main_v53 (addi : (⟨S1700000, .i32⟩ : BufTy).Contents (Elt F) → (⟨S1700000, .i32⟩ : BufTy).Contents (Elt F) → (⟨S1700000, .i32⟩ : BufTy).Contents (Elt F)),
    StableHlo.ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v54 main_v55 (broadcastInDim S1700000x1 ![0] bcast_S1700000_S1700000x1_0 : (⟨S1700000, .i32⟩ : BufTy).Contents (Elt F) → (⟨S1700000x1, .i32⟩ : BufTy).Contents (Elt F)),
    StableHlo.binary main_v49 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v57 (broadcastInDim S1700000x1 ![0] bcast_S1700000_S1700000x1_0 : (⟨S1700000, .f32⟩ : BufTy).Contents (Elt F) → (⟨S1700000x1, .f32⟩ : BufTy).Contents (Elt F)),
    StableHlo.unary main_v57 main_v58 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v56 main_v58 main_v59 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v60 (broadcastInDim S100000x64 ![] bcast_S_S100000x64 : (⟨S_, .f32⟩ : BufTy).Contents (Elt F) → (⟨S100000x64, .f32⟩ : BufTy).Contents (Elt F)),
    StableHlo.unary main_v6 main_v61 (broadcastInDim S1700000x1 ![0] bcast_S1700000_S1700000x1_0 : (⟨S1700000, .i32⟩ : BufTy).Contents (Elt F) → (⟨S1700000x1, .i32⟩ : BufTy).Contents (Elt F)),
    StableHlo.ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Bias, relu and the two dense layers of the head: the logits. -/
abbrev opsLogits : List (HloOp τ sig (Elt F)) :=
  [ StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v64 main_v65 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S100000x64, .f32⟩) main_call2_v0) (broadcastInDim S100000x64 ![] bcast_S_S100000x64),
    StableHlo.TRef.binary (StableHlo.TRef.of (T := ⟨S100000x64, .f32⟩) main_v65) (StableHlo.TRef.of (T := ⟨S100000x64, .f32⟩) main_call2_v0) (StableHlo.TRef.of (T := ⟨S100000x64, .f32⟩) main_v66) maximumf,
    StableHlo.binary main_v66 main_arg6 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (addf : (⟨S100000x64, .f32⟩ : BufTy).Contents (Elt F) → (⟨S100000x64, .f32⟩ : BufTy).Contents (Elt F) → (⟨S100000x64, .f32⟩ : BufTy).Contents (Elt F)),
    StableHlo.binary main_v70 main_arg8 main_v71 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg9 main_v72 (broadcastInDim S1x40 ![1] bcast_S40_S1x40_1 : (⟨S40, .f32⟩ : BufTy).Contents (Elt F) → (⟨S1x40, .f32⟩ : BufTy).Contents (Elt F)),
    StableHlo.unary main_v72 main_v73 (broadcastInDim S100000x40 ![0, 1] bcast_S1x40_S100000x40_0_1 : (⟨S1x40, .f32⟩ : BufTy).Contents (Elt F) → (⟨S100000x40, .f32⟩ : BufTy).Contents (Elt F)),
    StableHlo.binary main_v71 main_v73 main_v74 (addf : (⟨S100000x40, .f32⟩ : BufTy).Contents (Elt F) → (⟨S100000x40, .f32⟩ : BufTy).Contents (Elt F) → (⟨S100000x40, .f32⟩ : BufTy).Contents (Elt F)) ]

/-- Each row's maximum. -/
abbrev opsRowMax : List (HloOp τ sig (Elt F)) :=
  [ StableHlo.TRef.nullary (StableHlo.TRef.of (T := ⟨S_, .f32⟩) main_call3_cst) (constant S_ .f32 0xFF800000#32),
    StableHlo.TRef.binary (StableHlo.TRef.of (T := ⟨S100000x40, .f32⟩) main_v74) (StableHlo.TRef.of (T := ⟨S_, .f32⟩) main_call3_cst) (StableHlo.TRef.of (T := ⟨S100000, .f32⟩) main_call3_v0) (fun x v => Host.reduce FloatOps.maximumf x v reducesTo_S100000x40_S100000_d1 h_S_),
    StableHlo.TRef.nullary (StableHlo.TRef.of (T := ⟨S_, .f32⟩) main_call3_cst_0) (constant S_ .f32 0xFF800000#32),
    StableHlo.TRef.unary (StableHlo.TRef.of (T := ⟨S_, .f32⟩) main_call3_cst_0) (StableHlo.TRef.of (T := ⟨S100000, .f32⟩) main_call3_v1) (broadcastInDim S100000 ![] bcast_S_S100000),
    StableHlo.TRef.binary (StableHlo.TRef.of (T := ⟨S100000, .f32⟩) main_call3_v1) (StableHlo.TRef.of (T := ⟨S100000, .f32⟩) main_call3_v0) (StableHlo.TRef.of (T := ⟨S100000, .f32⟩) main_call3_v2) maximumf ]

/-- Each row less its maximum. -/
abbrev opsShift : List (HloOp τ sig (Elt F)) :=
  [ StableHlo.TRef.unary (StableHlo.TRef.of (T := ⟨S100000, .f32⟩) main_call3_v2) (StableHlo.TRef.of (T := ⟨S100000x1, .f32⟩) main_call3_v3) (broadcastInDim S100000x1 ![0] bcast_S100000_S100000x1_0),
    StableHlo.TRef.unary (StableHlo.TRef.of (T := ⟨S100000x1, .f32⟩) main_call3_v3) (StableHlo.TRef.of (T := ⟨S100000x40, .f32⟩) main_call3_v4) (broadcastInDim S100000x40 ![0, 1] bcast_S100000x1_S100000x40_0_1),
    StableHlo.TRef.binary (StableHlo.TRef.of (T := ⟨S100000x40, .f32⟩) main_v74) (StableHlo.TRef.of (T := ⟨S100000x40, .f32⟩) main_call3_v4) (StableHlo.TRef.of (T := ⟨S100000x40, .f32⟩) main_call3_v5) subf ]

/-- Each shifted row less the logarithm of the sum of its exponentials. -/
abbrev opsLogSumExp : List (HloOp τ sig (Elt F)) :=
  [ StableHlo.TRef.unary (StableHlo.TRef.of (T := ⟨S100000x40, .f32⟩) main_call3_v5) (StableHlo.TRef.of (T := ⟨S100000x40, .f32⟩) main_call3_v6) Host.exp,
    StableHlo.TRef.nullary (StableHlo.TRef.of (T := ⟨S_, .f32⟩) main_call3_cst_1) (constant S_ .f32 0x00000000#32),
    StableHlo.TRef.binary (StableHlo.TRef.of (T := ⟨S100000x40, .f32⟩) main_call3_v6) (StableHlo.TRef.of (T := ⟨S_, .f32⟩) main_call3_cst_1) (StableHlo.TRef.of (T := ⟨S100000, .f32⟩) main_call3_v7) (fun x v => Host.reduceAdd x v reducesTo_S100000x40_S100000_d1 h_S_),
    StableHlo.TRef.unary (StableHlo.TRef.of (T := ⟨S100000, .f32⟩) main_call3_v7) (StableHlo.TRef.of (T := ⟨S100000x1, .f32⟩) main_call3_v8) (broadcastInDim S100000x1 ![0] bcast_S100000_S100000x1_0),
    StableHlo.TRef.unary (StableHlo.TRef.of (T := ⟨S100000x1, .f32⟩) main_call3_v8) (StableHlo.TRef.of (T := ⟨S100000x1, .f32⟩) main_call3_v9) Host.log,
    StableHlo.TRef.unary (StableHlo.TRef.of (T := ⟨S100000x1, .f32⟩) main_call3_v9) (StableHlo.TRef.of (T := ⟨S100000x40, .f32⟩) main_call3_v10) (broadcastInDim S100000x40 ![0, 1] bcast_S100000x1_S100000x40_0_1),
    StableHlo.TRef.binary (StableHlo.TRef.of (T := ⟨S100000x40, .f32⟩) main_call3_v5) (StableHlo.TRef.of (T := ⟨S100000x40, .f32⟩) main_call3_v10) (StableHlo.TRef.of (T := ⟨S100000x40, .f32⟩) main_v75) subf ]

/-- @main's operations, in order. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (StableHlo.TRef.of (T := ⟨S_, .f32⟩) main_cst_3) (StableHlo.TRef.of (T := ⟨S_, .f32⟩) main_call0_v0) id,
    StableHlo.TRef.unary (StableHlo.TRef.of (T := ⟨S_, .f32⟩) main_call0_v0) (StableHlo.TRef.of (T := ⟨S100000, .f32⟩) main_call0_v1) (broadcastInDim S100000 ![] bcast_S_S100000),
    StableHlo.TRef.ternary (StableHlo.TRef.of (T := ⟨S100000, .i1⟩) main_v12) (StableHlo.TRef.of (T := ⟨S100000, .f32⟩) main_v14) (StableHlo.TRef.of (T := ⟨S100000, .f32⟩) main_call0_v1) (StableHlo.TRef.of (T := ⟨S100000, .f32⟩) main_v15) select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_7 (constantI S_ 32 0#32),
    StableHlo.unary main_c_7 main_v32 (broadcastInDim S1700000 ![] bcast_S_S1700000 : (⟨S_, .i32⟩ : BufTy).Contents (Elt F) → (⟨S1700000, .i32⟩ : BufTy).Contents (Elt F)),
    StableHlo.binary main_v3 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v34 (broadcastInDim S1700000 ![] bcast_S_S1700000 : (⟨S_, .i32⟩ : BufTy).Contents (Elt F) → (⟨S1700000, .i32⟩ : BufTy).Contents (Elt F)),
    StableHlo.binary main_v3 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v39 (broadcastInDim S1700000x1 ![0] bcast_S1700000_S1700000x1_0 : (⟨S1700000, .f32⟩ : BufTy).Contents (Elt F) → (⟨S1700000x1, .f32⟩ : BufTy).Contents (Elt F)),
    StableHlo.unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x64, .f32⟩) main_call1_v0) (broadcastInDim S100000x64 ![] bcast_S_S100000x64),
    StableHlo.TRef.binary (StableHlo.TRef.of (T := ⟨S100000x64, .f32⟩) main_v47) (StableHlo.TRef.of (T := ⟨S100000x64, .f32⟩) main_call1_v0) (StableHlo.TRef.of (T := ⟨S100000x64, .f32⟩) main_v48) maximumf,
    StableHlo.binary main_v48 main_arg4 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v50 (broadcastInDim S1700000 ![] bcast_S_S1700000 : (⟨S_, .i32⟩ : BufTy).Contents (Elt F) → (⟨S1700000, .i32⟩ : BufTy).Contents (Elt F)),
    StableHlo.binary main_v3 main_v50 main_v51 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v52 (broadcastInDim S1700000 ![] bcast_S_S1700000 : (⟨S_, .i32⟩ : BufTy).Contents (Elt F) → (⟨S1700000, .i32⟩ : BufTy).Contents (Elt F)),
    StableHlo.binary main_v3 main_v52 main_v53 (addi : (⟨S1700000, .i32⟩ : BufTy).Contents (Elt F) → (⟨S1700000, .i32⟩ : BufTy).Contents (Elt F) → (⟨S1700000, .i32⟩ : BufTy).Contents (Elt F)),
    StableHlo.ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v54 main_v55 (broadcastInDim S1700000x1 ![0] bcast_S1700000_S1700000x1_0 : (⟨S1700000, .i32⟩ : BufTy).Contents (Elt F) → (⟨S1700000x1, .i32⟩ : BufTy).Contents (Elt F)),
    StableHlo.binary main_v49 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v57 (broadcastInDim S1700000x1 ![0] bcast_S1700000_S1700000x1_0 : (⟨S1700000, .f32⟩ : BufTy).Contents (Elt F) → (⟨S1700000x1, .f32⟩ : BufTy).Contents (Elt F)),
    StableHlo.unary main_v57 main_v58 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v56 main_v58 main_v59 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v60 (broadcastInDim S100000x64 ![] bcast_S_S100000x64 : (⟨S_, .f32⟩ : BufTy).Contents (Elt F) → (⟨S100000x64, .f32⟩ : BufTy).Contents (Elt F)),
    StableHlo.unary main_v6 main_v61 (broadcastInDim S1700000x1 ![0] bcast_S1700000_S1700000x1_0 : (⟨S1700000, .i32⟩ : BufTy).Contents (Elt F) → (⟨S1700000x1, .i32⟩ : BufTy).Contents (Elt F)),
    StableHlo.ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v64 main_v65 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S100000x64, .f32⟩) main_call2_v0) (broadcastInDim S100000x64 ![] bcast_S_S100000x64),
    StableHlo.TRef.binary (StableHlo.TRef.of (T := ⟨S100000x64, .f32⟩) main_v65) (StableHlo.TRef.of (T := ⟨S100000x64, .f32⟩) main_call2_v0) (StableHlo.TRef.of (T := ⟨S100000x64, .f32⟩) main_v66) maximumf,
    StableHlo.binary main_v66 main_arg6 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (addf : (⟨S100000x64, .f32⟩ : BufTy).Contents (Elt F) → (⟨S100000x64, .f32⟩ : BufTy).Contents (Elt F) → (⟨S100000x64, .f32⟩ : BufTy).Contents (Elt F)),
    StableHlo.binary main_v70 main_arg8 main_v71 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg9 main_v72 (broadcastInDim S1x40 ![1] bcast_S40_S1x40_1 : (⟨S40, .f32⟩ : BufTy).Contents (Elt F) → (⟨S1x40, .f32⟩ : BufTy).Contents (Elt F)),
    StableHlo.unary main_v72 main_v73 (broadcastInDim S100000x40 ![0, 1] bcast_S1x40_S100000x40_0_1 : (⟨S1x40, .f32⟩ : BufTy).Contents (Elt F) → (⟨S100000x40, .f32⟩ : BufTy).Contents (Elt F)),
    StableHlo.binary main_v71 main_v73 main_v74 (addf : (⟨S100000x40, .f32⟩ : BufTy).Contents (Elt F) → (⟨S100000x40, .f32⟩ : BufTy).Contents (Elt F) → (⟨S100000x40, .f32⟩ : BufTy).Contents (Elt F)),
    StableHlo.TRef.nullary (StableHlo.TRef.of (T := ⟨S_, .f32⟩) main_call3_cst) (constant S_ .f32 0xFF800000#32),
    StableHlo.TRef.binary (StableHlo.TRef.of (T := ⟨S100000x40, .f32⟩) main_v74) (StableHlo.TRef.of (T := ⟨S_, .f32⟩) main_call3_cst) (StableHlo.TRef.of (T := ⟨S100000, .f32⟩) main_call3_v0) (fun x v => Host.reduce FloatOps.maximumf x v reducesTo_S100000x40_S100000_d1 h_S_),
    StableHlo.TRef.nullary (StableHlo.TRef.of (T := ⟨S_, .f32⟩) main_call3_cst_0) (constant S_ .f32 0xFF800000#32),
    StableHlo.TRef.unary (StableHlo.TRef.of (T := ⟨S_, .f32⟩) main_call3_cst_0) (StableHlo.TRef.of (T := ⟨S100000, .f32⟩) main_call3_v1) (broadcastInDim S100000 ![] bcast_S_S100000),
    StableHlo.TRef.binary (StableHlo.TRef.of (T := ⟨S100000, .f32⟩) main_call3_v1) (StableHlo.TRef.of (T := ⟨S100000, .f32⟩) main_call3_v0) (StableHlo.TRef.of (T := ⟨S100000, .f32⟩) main_call3_v2) maximumf,
    StableHlo.TRef.unary (StableHlo.TRef.of (T := ⟨S100000, .f32⟩) main_call3_v2) (StableHlo.TRef.of (T := ⟨S100000x1, .f32⟩) main_call3_v3) (broadcastInDim S100000x1 ![0] bcast_S100000_S100000x1_0),
    StableHlo.TRef.unary (StableHlo.TRef.of (T := ⟨S100000x1, .f32⟩) main_call3_v3) (StableHlo.TRef.of (T := ⟨S100000x40, .f32⟩) main_call3_v4) (broadcastInDim S100000x40 ![0, 1] bcast_S100000x1_S100000x40_0_1),
    StableHlo.TRef.binary (StableHlo.TRef.of (T := ⟨S100000x40, .f32⟩) main_v74) (StableHlo.TRef.of (T := ⟨S100000x40, .f32⟩) main_call3_v4) (StableHlo.TRef.of (T := ⟨S100000x40, .f32⟩) main_call3_v5) subf,
    StableHlo.TRef.unary (StableHlo.TRef.of (T := ⟨S100000x40, .f32⟩) main_call3_v5) (StableHlo.TRef.of (T := ⟨S100000x40, .f32⟩) main_call3_v6) Host.exp,
    StableHlo.TRef.nullary (StableHlo.TRef.of (T := ⟨S_, .f32⟩) main_call3_cst_1) (constant S_ .f32 0x00000000#32),
    StableHlo.TRef.binary (StableHlo.TRef.of (T := ⟨S100000x40, .f32⟩) main_call3_v6) (StableHlo.TRef.of (T := ⟨S_, .f32⟩) main_call3_cst_1) (StableHlo.TRef.of (T := ⟨S100000, .f32⟩) main_call3_v7) (fun x v => Host.reduceAdd x v reducesTo_S100000x40_S100000_d1 h_S_),
    StableHlo.TRef.unary (StableHlo.TRef.of (T := ⟨S100000, .f32⟩) main_call3_v7) (StableHlo.TRef.of (T := ⟨S100000x1, .f32⟩) main_call3_v8) (broadcastInDim S100000x1 ![0] bcast_S100000_S100000x1_0),
    StableHlo.TRef.unary (StableHlo.TRef.of (T := ⟨S100000x1, .f32⟩) main_call3_v8) (StableHlo.TRef.of (T := ⟨S100000x1, .f32⟩) main_call3_v9) Host.log,
    StableHlo.TRef.unary (StableHlo.TRef.of (T := ⟨S100000x1, .f32⟩) main_call3_v9) (StableHlo.TRef.of (T := ⟨S100000x40, .f32⟩) main_call3_v10) (broadcastInDim S100000x40 ![0, 1] bcast_S100000x1_S100000x40_0_1),
    StableHlo.TRef.binary (StableHlo.TRef.of (T := ⟨S100000x40, .f32⟩) main_call3_v5) (StableHlo.TRef.of (T := ⟨S100000x40, .f32⟩) main_call3_v10) (StableHlo.TRef.of (T := ⟨S100000x40, .f32⟩) main_v75) subf ]

theorem ops_split : (ops : List (HloOp τ sig (Elt F)))
    = opsEdges ++ (opsLayer1 ++ (opsPropagate2 ++ (opsLogits ++ (opsRowMax ++ (opsShift ++ opsLogSumExp))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- Every weakly fair execution ends with each TensorCore buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold of a list cut in two. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.Straight

end
-- ==== Proof.RefValue.lean ====
/-
  The reference's fold, read. Each of the seven stretches, over any contents `X` of the buffers, leaves its result
  at the matching stage of the network applied to what `X` holds, and leaves alone every buffer it does not write; so
  the fold of the whole line at the result buffer is the network of the ten argument arrays, and at an argument's
  buffer the argument.
-/
import proofs.«148974_j25589415149714_1_alg».proof.Proof.RefOps
import proofs.«148974_j25589415149714_1_alg».proof.Proof.Spec

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of a listed stretch writes keeps its contents through the stretch. -/
local macro "untouched " l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

theorem keepsEdges_arg0 (X : Valuation τ sig (Elt F)) : after opsEdges X (Proc.devRef .tc main_arg0) = X (Proc.devRef .tc main_arg0) := by untouched opsEdges
theorem keepsEdges_arg1 (X : Valuation τ sig (Elt F)) : after opsEdges X (Proc.devRef .tc main_arg1) = X (Proc.devRef .tc main_arg1) := by untouched opsEdges
theorem keepsEdges_arg2 (X : Valuation τ sig (Elt F)) : after opsEdges X (Proc.devRef .tc main_arg2) = X (Proc.devRef .tc main_arg2) := by untouched opsEdges
theorem keepsEdges_arg3 (X : Valuation τ sig (Elt F)) : after opsEdges X (Proc.devRef .tc main_arg3) = X (Proc.devRef .tc main_arg3) := by untouched opsEdges
theorem keepsEdges_arg4 (X : Valuation τ sig (Elt F)) : after opsEdges X (Proc.devRef .tc main_arg4) = X (Proc.devRef .tc main_arg4) := by untouched opsEdges
theorem keepsEdges_arg5 (X : Valuation τ sig (Elt F)) : after opsEdges X (Proc.devRef .tc main_arg5) = X (Proc.devRef .tc main_arg5) := by untouched opsEdges
theorem keepsEdges_arg6 (X : Valuation τ sig (Elt F)) : after opsEdges X (Proc.devRef .tc main_arg6) = X (Proc.devRef .tc main_arg6) := by untouched opsEdges
theorem keepsEdges_arg7 (X : Valuation τ sig (Elt F)) : after opsEdges X (Proc.devRef .tc main_arg7) = X (Proc.devRef .tc main_arg7) := by untouched opsEdges
theorem keepsEdges_arg8 (X : Valuation τ sig (Elt F)) : after opsEdges X (Proc.devRef .tc main_arg8) = X (Proc.devRef .tc main_arg8) := by untouched opsEdges
theorem keepsEdges_arg9 (X : Valuation τ sig (Elt F)) : after opsEdges X (Proc.devRef .tc main_arg9) = X (Proc.devRef .tc main_arg9) := by untouched opsEdges
theorem keepsLayer1_arg0 (X : Valuation τ sig (Elt F)) : after opsLayer1 X (Proc.devRef .tc main_arg0) = X (Proc.devRef .tc main_arg0) := by untouched opsLayer1
theorem keepsLayer1_arg1 (X : Valuation τ sig (Elt F)) : after opsLayer1 X (Proc.devRef .tc main_arg1) = X (Proc.devRef .tc main_arg1) := by untouched opsLayer1
theorem keepsLayer1_arg2 (X : Valuation τ sig (Elt F)) : after opsLayer1 X (Proc.devRef .tc main_arg2) = X (Proc.devRef .tc main_arg2) := by untouched opsLayer1
theorem keepsLayer1_arg3 (X : Valuation τ sig (Elt F)) : after opsLayer1 X (Proc.devRef .tc main_arg3) = X (Proc.devRef .tc main_arg3) := by untouched opsLayer1
theorem keepsLayer1_arg4 (X : Valuation τ sig (Elt F)) : after opsLayer1 X (Proc.devRef .tc main_arg4) = X (Proc.devRef .tc main_arg4) := by untouched opsLayer1
theorem keepsLayer1_arg5 (X : Valuation τ sig (Elt F)) : after opsLayer1 X (Proc.devRef .tc main_arg5) = X (Proc.devRef .tc main_arg5) := by untouched opsLayer1
theorem keepsLayer1_arg6 (X : Valuation τ sig (Elt F)) : after opsLayer1 X (Proc.devRef .tc main_arg6) = X (Proc.devRef .tc main_arg6) := by untouched opsLayer1
theorem keepsLayer1_arg7 (X : Valuation τ sig (Elt F)) : after opsLayer1 X (Proc.devRef .tc main_arg7) = X (Proc.devRef .tc main_arg7) := by untouched opsLayer1
theorem keepsLayer1_arg8 (X : Valuation τ sig (Elt F)) : after opsLayer1 X (Proc.devRef .tc main_arg8) = X (Proc.devRef .tc main_arg8) := by untouched opsLayer1
theorem keepsLayer1_arg9 (X : Valuation τ sig (Elt F)) : after opsLayer1 X (Proc.devRef .tc main_arg9) = X (Proc.devRef .tc main_arg9) := by untouched opsLayer1
theorem keepsLayer1_v3 (X : Valuation τ sig (Elt F)) : after opsLayer1 X (Proc.devRef .tc main_v3) = X (Proc.devRef .tc main_v3) := by untouched opsLayer1
theorem keepsLayer1_v6 (X : Valuation τ sig (Elt F)) : after opsLayer1 X (Proc.devRef .tc main_v6) = X (Proc.devRef .tc main_v6) := by untouched opsLayer1
theorem keepsLayer1_v30 (X : Valuation τ sig (Elt F)) : after opsLayer1 X (Proc.devRef .tc main_v30) = X (Proc.devRef .tc main_v30) := by untouched opsLayer1
theorem keepsPropagate2_arg0 (X : Valuation τ sig (Elt F)) : after opsPropagate2 X (Proc.devRef .tc main_arg0) = X (Proc.devRef .tc main_arg0) := by untouched opsPropagate2
theorem keepsPropagate2_arg1 (X : Valuation τ sig (Elt F)) : after opsPropagate2 X (Proc.devRef .tc main_arg1) = X (Proc.devRef .tc main_arg1) := by untouched opsPropagate2
theorem keepsPropagate2_arg2 (X : Valuation τ sig (Elt F)) : after opsPropagate2 X (Proc.devRef .tc main_arg2) = X (Proc.devRef .tc main_arg2) := by untouched opsPropagate2
theorem keepsPropagate2_arg3 (X : Valuation τ sig (Elt F)) : after opsPropagate2 X (Proc.devRef .tc main_arg3) = X (Proc.devRef .tc main_arg3) := by untouched opsPropagate2
theorem keepsPropagate2_arg4 (X : Valuation τ sig (Elt F)) : after opsPropagate2 X (Proc.devRef .tc main_arg4) = X (Proc.devRef .tc main_arg4) := by untouched opsPropagate2
theorem keepsPropagate2_arg5 (X : Valuation τ sig (Elt F)) : after opsPropagate2 X (Proc.devRef .tc main_arg5) = X (Proc.devRef .tc main_arg5) := by untouched opsPropagate2
theorem keepsPropagate2_arg6 (X : Valuation τ sig (Elt F)) : after opsPropagate2 X (Proc.devRef .tc main_arg6) = X (Proc.devRef .tc main_arg6) := by untouched opsPropagate2
theorem keepsPropagate2_arg7 (X : Valuation τ sig (Elt F)) : after opsPropagate2 X (Proc.devRef .tc main_arg7) = X (Proc.devRef .tc main_arg7) := by untouched opsPropagate2
theorem keepsPropagate2_arg8 (X : Valuation τ sig (Elt F)) : after opsPropagate2 X (Proc.devRef .tc main_arg8) = X (Proc.devRef .tc main_arg8) := by untouched opsPropagate2
theorem keepsPropagate2_arg9 (X : Valuation τ sig (Elt F)) : after opsPropagate2 X (Proc.devRef .tc main_arg9) = X (Proc.devRef .tc main_arg9) := by untouched opsPropagate2
theorem keepsLogits_arg0 (X : Valuation τ sig (Elt F)) : after opsLogits X (Proc.devRef .tc main_arg0) = X (Proc.devRef .tc main_arg0) := by untouched opsLogits
theorem keepsLogits_arg1 (X : Valuation τ sig (Elt F)) : after opsLogits X (Proc.devRef .tc main_arg1) = X (Proc.devRef .tc main_arg1) := by untouched opsLogits
theorem keepsLogits_arg2 (X : Valuation τ sig (Elt F)) : after opsLogits X (Proc.devRef .tc main_arg2) = X (Proc.devRef .tc main_arg2) := by untouched opsLogits
theorem keepsLogits_arg3 (X : Valuation τ sig (Elt F)) : after opsLogits X (Proc.devRef .tc main_arg3) = X (Proc.devRef .tc main_arg3) := by untouched opsLogits
theorem keepsLogits_arg4 (X : Valuation τ sig (Elt F)) : after opsLogits X (Proc.devRef .tc main_arg4) = X (Proc.devRef .tc main_arg4) := by untouched opsLogits
theorem keepsLogits_arg5 (X : Valuation τ sig (Elt F)) : after opsLogits X (Proc.devRef .tc main_arg5) = X (Proc.devRef .tc main_arg5) := by untouched opsLogits
theorem keepsLogits_arg6 (X : Valuation τ sig (Elt F)) : after opsLogits X (Proc.devRef .tc main_arg6) = X (Proc.devRef .tc main_arg6) := by untouched opsLogits
theorem keepsLogits_arg7 (X : Valuation τ sig (Elt F)) : after opsLogits X (Proc.devRef .tc main_arg7) = X (Proc.devRef .tc main_arg7) := by untouched opsLogits
theorem keepsLogits_arg8 (X : Valuation τ sig (Elt F)) : after opsLogits X (Proc.devRef .tc main_arg8) = X (Proc.devRef .tc main_arg8) := by untouched opsLogits
theorem keepsLogits_arg9 (X : Valuation τ sig (Elt F)) : after opsLogits X (Proc.devRef .tc main_arg9) = X (Proc.devRef .tc main_arg9) := by untouched opsLogits
theorem keepsRowMax_arg0 (X : Valuation τ sig (Elt F)) : after opsRowMax X (Proc.devRef .tc main_arg0) = X (Proc.devRef .tc main_arg0) := by untouched opsRowMax
theorem keepsRowMax_arg1 (X : Valuation τ sig (Elt F)) : after opsRowMax X (Proc.devRef .tc main_arg1) = X (Proc.devRef .tc main_arg1) := by untouched opsRowMax
theorem keepsRowMax_arg2 (X : Valuation τ sig (Elt F)) : after opsRowMax X (Proc.devRef .tc main_arg2) = X (Proc.devRef .tc main_arg2) := by untouched opsRowMax
theorem keepsRowMax_arg3 (X : Valuation τ sig (Elt F)) : after opsRowMax X (Proc.devRef .tc main_arg3) = X (Proc.devRef .tc main_arg3) := by untouched opsRowMax
theorem keepsRowMax_arg4 (X : Valuation τ sig (Elt F)) : after opsRowMax X (Proc.devRef .tc main_arg4) = X (Proc.devRef .tc main_arg4) := by untouched opsRowMax
theorem keepsRowMax_arg5 (X : Valuation τ sig (Elt F)) : after opsRowMax X (Proc.devRef .tc main_arg5) = X (Proc.devRef .tc main_arg5) := by untouched opsRowMax
theorem keepsRowMax_arg6 (X : Valuation τ sig (Elt F)) : after opsRowMax X (Proc.devRef .tc main_arg6) = X (Proc.devRef .tc main_arg6) := by untouched opsRowMax
theorem keepsRowMax_arg7 (X : Valuation τ sig (Elt F)) : after opsRowMax X (Proc.devRef .tc main_arg7) = X (Proc.devRef .tc main_arg7) := by untouched opsRowMax
theorem keepsRowMax_arg8 (X : Valuation τ sig (Elt F)) : after opsRowMax X (Proc.devRef .tc main_arg8) = X (Proc.devRef .tc main_arg8) := by untouched opsRowMax
theorem keepsRowMax_arg9 (X : Valuation τ sig (Elt F)) : after opsRowMax X (Proc.devRef .tc main_arg9) = X (Proc.devRef .tc main_arg9) := by untouched opsRowMax
theorem keepsRowMax_v74 (X : Valuation τ sig (Elt F)) : after opsRowMax X (Proc.devRef .tc main_v74) = X (Proc.devRef .tc main_v74) := by untouched opsRowMax
theorem keepsShift_arg0 (X : Valuation τ sig (Elt F)) : after opsShift X (Proc.devRef .tc main_arg0) = X (Proc.devRef .tc main_arg0) := by untouched opsShift
theorem keepsShift_arg1 (X : Valuation τ sig (Elt F)) : after opsShift X (Proc.devRef .tc main_arg1) = X (Proc.devRef .tc main_arg1) := by untouched opsShift
theorem keepsShift_arg2 (X : Valuation τ sig (Elt F)) : after opsShift X (Proc.devRef .tc main_arg2) = X (Proc.devRef .tc main_arg2) := by untouched opsShift
theorem keepsShift_arg3 (X : Valuation τ sig (Elt F)) : after opsShift X (Proc.devRef .tc main_arg3) = X (Proc.devRef .tc main_arg3) := by untouched opsShift
theorem keepsShift_arg4 (X : Valuation τ sig (Elt F)) : after opsShift X (Proc.devRef .tc main_arg4) = X (Proc.devRef .tc main_arg4) := by untouched opsShift
theorem keepsShift_arg5 (X : Valuation τ sig (Elt F)) : after opsShift X (Proc.devRef .tc main_arg5) = X (Proc.devRef .tc main_arg5) := by untouched opsShift
theorem keepsShift_arg6 (X : Valuation τ sig (Elt F)) : after opsShift X (Proc.devRef .tc main_arg6) = X (Proc.devRef .tc main_arg6) := by untouched opsShift
theorem keepsShift_arg7 (X : Valuation τ sig (Elt F)) : after opsShift X (Proc.devRef .tc main_arg7) = X (Proc.devRef .tc main_arg7) := by untouched opsShift
theorem keepsShift_arg8 (X : Valuation τ sig (Elt F)) : after opsShift X (Proc.devRef .tc main_arg8) = X (Proc.devRef .tc main_arg8) := by untouched opsShift
theorem keepsShift_arg9 (X : Valuation τ sig (Elt F)) : after opsShift X (Proc.devRef .tc main_arg9) = X (Proc.devRef .tc main_arg9) := by untouched opsShift
theorem keepsLogSumExp_arg0 (X : Valuation τ sig (Elt F)) : after opsLogSumExp X (Proc.devRef .tc main_arg0) = X (Proc.devRef .tc main_arg0) := by untouched opsLogSumExp
theorem keepsLogSumExp_arg1 (X : Valuation τ sig (Elt F)) : after opsLogSumExp X (Proc.devRef .tc main_arg1) = X (Proc.devRef .tc main_arg1) := by untouched opsLogSumExp
theorem keepsLogSumExp_arg2 (X : Valuation τ sig (Elt F)) : after opsLogSumExp X (Proc.devRef .tc main_arg2) = X (Proc.devRef .tc main_arg2) := by untouched opsLogSumExp
theorem keepsLogSumExp_arg3 (X : Valuation τ sig (Elt F)) : after opsLogSumExp X (Proc.devRef .tc main_arg3) = X (Proc.devRef .tc main_arg3) := by untouched opsLogSumExp
theorem keepsLogSumExp_arg4 (X : Valuation τ sig (Elt F)) : after opsLogSumExp X (Proc.devRef .tc main_arg4) = X (Proc.devRef .tc main_arg4) := by untouched opsLogSumExp
theorem keepsLogSumExp_arg5 (X : Valuation τ sig (Elt F)) : after opsLogSumExp X (Proc.devRef .tc main_arg5) = X (Proc.devRef .tc main_arg5) := by untouched opsLogSumExp
theorem keepsLogSumExp_arg6 (X : Valuation τ sig (Elt F)) : after opsLogSumExp X (Proc.devRef .tc main_arg6) = X (Proc.devRef .tc main_arg6) := by untouched opsLogSumExp
theorem keepsLogSumExp_arg7 (X : Valuation τ sig (Elt F)) : after opsLogSumExp X (Proc.devRef .tc main_arg7) = X (Proc.devRef .tc main_arg7) := by untouched opsLogSumExp
theorem keepsLogSumExp_arg8 (X : Valuation τ sig (Elt F)) : after opsLogSumExp X (Proc.devRef .tc main_arg8) = X (Proc.devRef .tc main_arg8) := by untouched opsLogSumExp
theorem keepsLogSumExp_arg9 (X : Valuation τ sig (Elt F)) : after opsLogSumExp X (Proc.devRef .tc main_arg9) = X (Proc.devRef .tc main_arg9) := by untouched opsLogSumExp

attribute [local irreducible] Host.reduce Host.reduceAdd Host.gather Host.scatterAdd Host.powf Host.exp Host.log concatenate

set_option maxRecDepth 8192 in
/-- The first stretch leaves the senders in their buffer, -/
theorem edges_senders (X : Valuation τ sig (Elt F)) :
    after opsEdges X (Proc.devRef .tc main_v3) = Cert.Gcn.senders (F := F) (X (Proc.devRef .tc main_arg1)) := by
  after_results_simp
  rfl

set_option maxRecDepth 8192 in
/-- the receivers in theirs, -/
theorem edges_receivers (X : Valuation τ sig (Elt F)) :
    after opsEdges X (Proc.devRef .tc main_v6) = Cert.Gcn.receivers (F := F) (X (Proc.devRef .tc main_arg1)) := by
  after_results_simp
  rfl

set_option maxRecDepth 8192 in
set_option maxHeartbeats 4000000 in
/-- and the edges' weights in theirs. -/
theorem edges_weight (X : Valuation τ sig (Elt F)) :
    after opsEdges X (Proc.devRef .tc main_v30) = Cert.Gcn.edgeWeight (F := F) (X (Proc.devRef .tc main_arg1)) := by
  after_results_simp
  rfl

set_option maxRecDepth 8192 in
set_option maxHeartbeats 4000000 in
/-- The second stretch: relu(P(x·W1) + b1)·W2 of what it finds. -/
theorem layer1_result (X : Valuation τ sig (Elt F)) :
    after opsLayer1 X (Proc.devRef .tc main_v49)
      = Cert.Gcn.dense64 (F := F) (Cert.Gcn.relu64 (F := F) (Cert.Gcn.addBias64 (F := F)
          (Cert.Gcn.propagateWith (F := F) (Cert.Gcn.dense64 (F := F) (X (Proc.devRef .tc main_arg0)) (X (Proc.devRef .tc main_arg2)))
            (X (Proc.devRef .tc main_v3)) (X (Proc.devRef .tc main_v6)) (X (Proc.devRef .tc main_v30)))
          (X (Proc.devRef .tc main_arg3)))) (X (Proc.devRef .tc main_arg4)) := by
  after_results_simp
  rfl

set_option maxRecDepth 8192 in
set_option maxHeartbeats 4000000 in
/-- The third stretch: one more round of propagation. -/
theorem propagate2_result (X : Valuation τ sig (Elt F)) :
    after opsPropagate2 X (Proc.devRef .tc main_v62)
      = Cert.Gcn.propagateWith (F := F) (X (Proc.devRef .tc main_v49)) (X (Proc.devRef .tc main_v3)) (X (Proc.devRef .tc main_v6)) (X (Proc.devRef .tc main_v30)) := by
  after_results_simp
  rfl

set_option maxRecDepth 8192 in
set_option maxHeartbeats 4000000 in
/-- The fourth stretch: the logits. -/
theorem logits_result (X : Valuation τ sig (Elt F)) :
    after opsLogits X (Proc.devRef .tc main_v74)
      = Cert.Gcn.logits (F := F) (X (Proc.devRef .tc main_v62)) (X (Proc.devRef .tc main_arg5)) (X (Proc.devRef .tc main_arg6)) (X (Proc.devRef .tc main_arg7))
          (X (Proc.devRef .tc main_arg8)) (X (Proc.devRef .tc main_arg9)) := by
  after_results_simp
  rfl

/-- The fifth stretch with the reduction along the rows replaced by any function `g` of the operand and the initial value. -/
abbrev opsRowMaxOf (g : (⟨S100000x40, .f32⟩ : BufTy).Contents (Elt F) → (⟨S_, .f32⟩ : BufTy).Contents (Elt F) → (⟨S100000, .f32⟩ : BufTy).Contents (Elt F)) :
    List (HloOp τ sig (Elt F)) :=
  [ StableHlo.TRef.nullary (StableHlo.TRef.of (T := ⟨S_, .f32⟩) main_call3_cst) (constant S_ .f32 0xFF800000#32),
    StableHlo.TRef.binary (StableHlo.TRef.of (T := ⟨S100000x40, .f32⟩) main_v74) (StableHlo.TRef.of (T := ⟨S_, .f32⟩) main_call3_cst) (StableHlo.TRef.of (T := ⟨S100000, .f32⟩) main_call3_v0) g,
    StableHlo.TRef.nullary (StableHlo.TRef.of (T := ⟨S_, .f32⟩) main_call3_cst_0) (constant S_ .f32 0xFF800000#32),
    StableHlo.TRef.unary (StableHlo.TRef.of (T := ⟨S_, .f32⟩) main_call3_cst_0) (StableHlo.TRef.of (T := ⟨S100000, .f32⟩) main_call3_v1) (broadcastInDim S100000 ![] bcast_S_S100000),
    StableHlo.TRef.binary (StableHlo.TRef.of (T := ⟨S100000, .f32⟩) main_call3_v1) (StableHlo.TRef.of (T := ⟨S100000, .f32⟩) main_call3_v0) (StableHlo.TRef.of (T := ⟨S100000, .f32⟩) main_call3_v2) maximumf ]

set_option maxRecDepth 8192 in
/-- It leaves the maximum of -∞ and `g` of what it finds. -/
theorem rowMaxOf_result (g : (⟨S100000x40, .f32⟩ : BufTy).Contents (Elt F) → (⟨S_, .f32⟩ : BufTy).Contents (Elt F) → (⟨S100000, .f32⟩ : BufTy).Contents (Elt F))
    (X : Valuation τ sig (Elt F)) :
    after (opsRowMaxOf g) X (Proc.devRef .tc main_call3_v2)
      = maximumf (broadcastInDim S100000 ![] bcast_S_S100000 (constant (F := F) S_ .f32 0xFF800000#32))
          (g (X (Proc.devRef .tc main_v74)) (constant (F := F) S_ .f32 0xFF800000#32)) := by
  after_results_simp
  rfl

/-- The fifth stretch: each row's maximum. -/
theorem rowMax_result (X : Valuation τ sig (Elt F)) :
    after opsRowMax X (Proc.devRef .tc main_call3_v2) = Cert.Gcn.rowMax (F := F) (X (Proc.devRef .tc main_v74)) :=
  rowMaxOf_result (fun x v => Host.reduce (FloatOps.maximumf (F := F)) x v reducesTo_S100000x40_S100000_d1 h_S_) X

set_option maxRecDepth 8192 in
/-- The sixth stretch: each row less its maximum. -/
theorem shift_result (X : Valuation τ sig (Elt F)) :
    after opsShift X (Proc.devRef .tc main_call3_v5) = Cert.Gcn.shiftBy (F := F) (X (Proc.devRef .tc main_v74)) (X (Proc.devRef .tc main_call3_v2)) := by
  after_results_simp
  rfl

set_option maxRecDepth 8192 in
/-- The seventh stretch: less the logarithm of the sum of the exponentials. -/
theorem logSumExp_result (X : Valuation τ sig (Elt F)) :
    after opsLogSumExp X (Proc.devRef .tc main_v75) = Cert.Gcn.lessLogSumExp (F := F) (X (Proc.devRef .tc main_call3_v5)) := by
  after_results_simp
  rfl

/-- The fold of the whole line at the result buffer is the network of the argument arrays. -/
theorem result_eq (V : Valuation τ sig (Elt F)) :
    after ops V (Proc.devRef .tc main_v75) = Cert.Gcn.network (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_append, after_append, after_append, after_append, after_append, after_append,
    logSumExp_result, shift_result, rowMax_result, keepsRowMax_v74, logits_result, propagate2_result, layer1_result,
    edges_senders, edges_receivers, edges_weight,
    keepsLayer1_v3, keepsLayer1_v6, keepsLayer1_v30, edges_senders, edges_receivers, edges_weight,
    keepsEdges_arg0, keepsEdges_arg2, keepsEdges_arg3, keepsEdges_arg4,
    keepsPropagate2_arg5, keepsLayer1_arg5, keepsEdges_arg5,
    keepsPropagate2_arg6, keepsLayer1_arg6, keepsEdges_arg6,
    keepsPropagate2_arg7, keepsLayer1_arg7, keepsEdges_arg7,
    keepsPropagate2_arg8, keepsLayer1_arg8, keepsEdges_arg8,
    keepsPropagate2_arg9, keepsLayer1_arg9, keepsEdges_arg9]
  rfl

/-- The fold at `main_arg0`'s buffer is the argument. -/
theorem arg0_eq (V : Valuation τ sig (Elt F)) : after ops V (Proc.devRef .tc main_arg0) = V (Proc.devRef .tc main_arg0) := by
  rw [ops_split, after_append, after_append, after_append, after_append, after_append, after_append, keepsLogSumExp_arg0, keepsShift_arg0, keepsRowMax_arg0, keepsLogits_arg0, keepsPropagate2_arg0, keepsLayer1_arg0, keepsEdges_arg0]
/-- The fold at `main_arg1`'s buffer is the argument. -/
theorem arg1_eq (V : Valuation τ sig (Elt F)) : after ops V (Proc.devRef .tc main_arg1) = V (Proc.devRef .tc main_arg1) := by
  rw [ops_split, after_append, after_append, after_append, after_append, after_append, after_append, keepsLogSumExp_arg1, keepsShift_arg1, keepsRowMax_arg1, keepsLogits_arg1, keepsPropagate2_arg1, keepsLayer1_arg1, keepsEdges_arg1]
/-- The fold at `main_arg2`'s buffer is the argument. -/
theorem arg2_eq (V : Valuation τ sig (Elt F)) : after ops V (Proc.devRef .tc main_arg2) = V (Proc.devRef .tc main_arg2) := by
  rw [ops_split, after_append, after_append, after_append, after_append, after_append, after_append, keepsLogSumExp_arg2, keepsShift_arg2, keepsRowMax_arg2, keepsLogits_arg2, keepsPropagate2_arg2, keepsLayer1_arg2, keepsEdges_arg2]
/-- The fold at `main_arg3`'s buffer is the argument. -/
theorem arg3_eq (V : Valuation τ sig (Elt F)) : after ops V (Proc.devRef .tc main_arg3) = V (Proc.devRef .tc main_arg3) := by
  rw [ops_split, after_append, after_append, after_append, after_append, after_append, after_append, keepsLogSumExp_arg3, keepsShift_arg3, keepsRowMax_arg3, keepsLogits_arg3, keepsPropagate2_arg3, keepsLayer1_arg3, keepsEdges_arg3]
/-- The fold at `main_arg4`'s buffer is the argument. -/
theorem arg4_eq (V : Valuation τ sig (Elt F)) : after ops V (Proc.devRef .tc main_arg4) = V (Proc.devRef .tc main_arg4) := by
  rw [ops_split, after_append, after_append, after_append, after_append, after_append, after_append, keepsLogSumExp_arg4, keepsShift_arg4, keepsRowMax_arg4, keepsLogits_arg4, keepsPropagate2_arg4, keepsLayer1_arg4, keepsEdges_arg4]
/-- The fold at `main_arg5`'s buffer is the argument. -/
theorem arg5_eq (V : Valuation τ sig (Elt F)) : after ops V (Proc.devRef .tc main_arg5) = V (Proc.devRef .tc main_arg5) := by
  rw [ops_split, after_append, after_append, after_append, after_append, after_append, after_append, keepsLogSumExp_arg5, keepsShift_arg5, keepsRowMax_arg5, keepsLogits_arg5, keepsPropagate2_arg5, keepsLayer1_arg5, keepsEdges_arg5]
/-- The fold at `main_arg6`'s buffer is the argument. -/
theorem arg6_eq (V : Valuation τ sig (Elt F)) : after ops V (Proc.devRef .tc main_arg6) = V (Proc.devRef .tc main_arg6) := by
  rw [ops_split, after_append, after_append, after_append, after_append, after_append, after_append, keepsLogSumExp_arg6, keepsShift_arg6, keepsRowMax_arg6, keepsLogits_arg6, keepsPropagate2_arg6, keepsLayer1_arg6, keepsEdges_arg6]
/-- The fold at `main_arg7`'s buffer is the argument. -/
theorem arg7_eq (V : Valuation τ sig (Elt F)) : after ops V (Proc.devRef .tc main_arg7) = V (Proc.devRef .tc main_arg7) := by
  rw [ops_split, after_append, after_append, after_append, after_append, after_append, after_append, keepsLogSumExp_arg7, keepsShift_arg7, keepsRowMax_arg7, keepsLogits_arg7, keepsPropagate2_arg7, keepsLayer1_arg7, keepsEdges_arg7]
/-- The fold at `main_arg8`'s buffer is the argument. -/
theorem arg8_eq (V : Valuation τ sig (Elt F)) : after ops V (Proc.devRef .tc main_arg8) = V (Proc.devRef .tc main_arg8) := by
  rw [ops_split, after_append, after_append, after_append, after_append, after_append, after_append, keepsLogSumExp_arg8, keepsShift_arg8, keepsRowMax_arg8, keepsLogits_arg8, keepsPropagate2_arg8, keepsLayer1_arg8, keepsEdges_arg8]
/-- The fold at `main_arg9`'s buffer is the argument. -/
theorem arg9_eq (V : Valuation τ sig (Elt F)) : after ops V (Proc.devRef .tc main_arg9) = V (Proc.devRef .tc main_arg9) := by
  rw [ops_split, after_append, after_append, after_append, after_append, after_append, after_append, keepsLogSumExp_arg9, keepsShift_arg9, keepsRowMax_arg9, keepsLogits_arg9, keepsPropagate2_arg9, keepsLayer1_arg9, keepsEdges_arg9]

end Cert.ReferenceIdeal.Straight

end
-- ==== Proof.lean ====
/-
  A two-layer graph convolution with a two-layer classifier head and a row-wise log_softmax, computed two ways.
  The reference applies, on the host, the edges' normalisation, then x·W1, a round of propagation along the weighted
  edges, bias and relu, the product with W2, a second round, bias and relu, the products with W3 and W4 with their
  biases, and log_softmax along each row of 40. The kernel does the same normalisation and the same two rounds of
  propagation on the host, and the three dense stretches in three launches over twenty blocks of 5000 rows each.

  On the extended reals the two are one function of the ten argument arrays (Spec.lean's `network`): a change of
  float format is the identity, a product into a zero accumulator is the host's product, and every dense stage, bias,
  relu and the log_softmax read row r of their result from row r of their operand, so the blocks of 5000 rows the
  launches write are the blocks of the whole arrays the reference computes, and they tile the 100000 rows. No law used
  here needs the inputs finite. The three frames: the two programs with launches by their generated frame runs, the
  reference by its own run with the result dropped. Nothing was rewritten when the kernel was idealized, so the
  preservation claim is `True`.
-/
import proofs.«148974_j25589415149714_1_alg».proof.Defs
import proofs.«148974_j25589415149714_1_alg».proof.Proof.Gen.Kernel
import proofs.«148974_j25589415149714_1_alg».proof.Proof.Gen.Kernel.Skeleton
import proofs.«148974_j25589415149714_1_alg».proof.Proof.Gen.Kernel.Launch
import proofs.«148974_j25589415149714_1_alg».proof.Proof.Gen.Kernel.Points
import proofs.«148974_j25589415149714_1_alg».proof.Proof.Gen.Kernel.Frame
import proofs.«148974_j25589415149714_1_alg».proof.Proof.Gen.KernelIdeal
import proofs.«148974_j25589415149714_1_alg».proof.Proof.Gen.KernelIdeal.Skeleton
import proofs.«148974_j25589415149714_1_alg».proof.Proof.Gen.KernelIdeal.Launch
import proofs.«148974_j25589415149714_1_alg».proof.Proof.Gen.KernelIdeal.Points
import proofs.«148974_j25589415149714_1_alg».proof.Proof.Gen.KernelIdeal.Frame
import proofs.«148974_j25589415149714_1_alg».proof.Proof.Gen.ReferenceIdeal
import proofs.«148974_j25589415149714_1_alg».proof.Proof.Gen.Pre_finite_inputs
import proofs.«148974_j25589415149714_1_alg».proof.Proof.KernelValue
import proofs.«148974_j25589415149714_1_alg».proof.Proof.RefValue
import Idealize.ShloMosaic.Adequacy
import Idealize.ShloMosaic.Init

noncomputable section

open Idealize.ShloMosaic Idealize.ShloMosaic.TcCoe Idealize.SL.Sem

namespace Cert.ReferenceIdeal.Straight

open Cert.ReferenceIdeal Idealize.ShloMosaic.StableHlo

/-- The reference's run: the result at the network of the argument arrays, the arguments as launched. -/
theorem run_network (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75)
        = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v75).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_fold m ρ)

end Cert.ReferenceIdeal.Straight

namespace Cert.Proof

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Straight.run_network m ρ)

/-- Both programs, from memories that agree on the arguments, end with the result at the network of the arguments. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Rows.run_network m ρ, ?_⟩
  refine (θ_run Cert.ReferenceIdeal.defs _ _).mono (fun _ h c => ⟨(h c).1.trans ?_, (h c).2⟩)
    (Cert.ReferenceIdeal.Straight.run_network m' ρ')
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
